-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048 : Shape := ⟨1, ![2048]⟩
abbrev S2048x2048 : Shape := ⟨2, ![2048, 2048]⟩
abbrev S2048x8192 : Shape := ⟨2, ![2048, 8192]⟩
abbrev S8192 : Shape := ⟨1, ![8192]⟩
abbrev S8192x2048 : Shape := ⟨2, ![8192, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S8192x2048 : S_.BroadcastsInDim S8192x2048 (![] : Fin 0 → Fin S8192x2048.rank)
  reducesTo_S8192x2048_S_d0_1 : S8192x2048.ReducesTo [0, 1] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x8192 .f32) (main_arg8 : FVec F S8192 .f32) (main_arg9 : FVec F S8192x2048 .f32) (main_arg10 : FVec F S2048 .f32) (main_v33 : IVec S_ 1) : IVec S_ 1 :=
  let main_v34 : FVec F S2048x8192 .f32 := Host.absf main_arg7
  let main_cst_12 : FVec F S_ .f32 := constant S_ .f32 0x7F800000#32
  let main_v35 : FVec F S2048x8192 .f32 := broadcastInDim S2048x8192 ![] bcast_S_S2048x8192 main_cst_12
  let main_v36 : IVec S2048x8192 1 := cmpf .olt main_v34 main_v35
  let main_c_13 : IVec S_ 1 := constantI S_ 1 1#1
  let main_v37 : IVec S_ 1 := (fun x v => Host.reduce IntOp.andi x v reducesTo_S2048x8192_S_d0_1 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S8192x2048 .f32 := Host.absf main_arg9
  let main_cst_16 : FVec F S_ .f32 := constant S_ .f32 0x7F800000#32
  let main_v45 : FVec F S8192x2048 .f32 := broadcastInDim S8192x2048 ![] bcast_S_S8192x2048 main_cst_16
  let main_v46 : IVec S8192x2048 1 := cmpf .olt main_v44 main_v45
  let main_c_17 : IVec S_ 1 := constantI S_ 1 1#1
  let main_v47 : IVec S_ 1 := (fun x v => Host.reduce IntOp.andi x v reducesTo_S8192x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048x2048 .f32) (main_arg5 : FVec F S2048 .f32) (main_arg6 : FVec F S2048 .f32) (main_arg7 : FVec F S2048x8192 .f32) (main_arg8 : FVec F S8192 .f32) (main_arg9 : FVec F S8192x2048 .f32) (main_arg10 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x2048 .f32) (main_arg1 : FVec F S4x2048x2048 .f32) (main_arg2 : FVec F S4x2048x2048 .f32) (main_arg3 : FVec F S2048 .f32) (main_arg4 : FVec F S2048x2048 .f32) (main_arg5 : FVec F S2048 .f32) (main_arg6 : FVec F S2048 .f32) (main_arg7 : FVec F S2048x8192 .f32) (main_arg8 : FVec F S8192 .f32) (main_arg9 : FVec F S8192x2048 .f32) (main_arg10 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_v13 main_v16
-- ==== Kernel.lean ====
abbrev S4x2048x2048 : Shape := ⟨3, ![4, 2048, 2048]⟩
abbrev S2048 : Shape := ⟨1, ![2048]⟩
abbrev S2048x2048 : Shape := ⟨2, ![2048, 2048]⟩
abbrev S2048x8192 : Shape := ⟨2, ![2048, 8192]⟩
abbrev S8192 : Shape := ⟨1, ![8192]⟩
abbrev S8192x2048 : Shape := ⟨2, ![8192, 2048]⟩
abbrev S1x2048 : Shape := ⟨2, ![1, 2048]⟩
abbrev S1x8192 : Shape := ⟨2, ![1, 8192]⟩
abbrev S512x2048 : Shape := ⟨2, ![512, 2048]⟩
abbrev S2048x256 : Shape := ⟨2, ![2048, 256]⟩
abbrev S1x256 : Shape := ⟨2, ![1, 256]⟩
abbrev S256x2048 : Shape := ⟨2, ![256, 2048]⟩
abbrev S512 : Shape := ⟨1, ![512]⟩
abbrev S512x1 : Shape := ⟨2, ![512, 1]⟩
abbrev S512x256 : Shape := ⟨2, ![512, 256]⟩

abbrev nBuf : Space → Nat
  | .hbm => 22
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x8192, .f32⟩
  | .hbm, ⟨8, _⟩ => ⟨S8192, .f32⟩
  | .hbm, ⟨9, _⟩ => ⟨S8192x2048, .f32⟩
  | .hbm, ⟨10, _⟩ => ⟨S2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x8192, .f32⟩
  | .hbm, ⟨17, _⟩ => ⟨S1x2048, .f32⟩
  | .hbm, ⟨18, _⟩ => ⟨S2048x8192, .bf16⟩
  | .hbm, ⟨19, _⟩ => ⟨S8192x2048, .bf16⟩
  | .hbm, ⟨20, _⟩ => ⟨S8192x2048, .f32⟩
  | .hbm, ⟨21, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x256, .bf16⟩
  | .local _ .vmem, ⟨6, _⟩ => ⟨S2048x256, .bf16⟩
  | .local _ .vmem, ⟨7, _⟩ => ⟨S1x256, .f32⟩
  | .local _ .vmem, ⟨8, _⟩ => ⟨S1x256, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v22 : BitVec 1 := Scalar.cmpi .eq arg1 c31_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S4x2048x2048_S8192x2048 : S4x2048x2048.ShapeCasts S8192x2048
  shapeCasts_S2048_S1x2048 : S2048.ShapeCasts S1x2048
  shapeCasts_S8192_S1x8192 : S8192.ShapeCasts S1x8192
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  packedbf16_S512x2048_S512x2048_0_0 : (Rect.unit (s := S512x2048) ![0, 0] S512x2048.size inb_S512x2048_S512x2048_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S8192x2048_S4x2048x2048 : S8192x2048.ShapeCasts S4x2048x2048
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x8192.size a
  hwx0_5 : ∀ i : grid0.Coords, EltTy.bits .bf16 = 32 ∨ (Rect.block (s := S2048x8192) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x8192.size a
  hwx0_6 : ∀ i : grid0.Coords, EltTy.bits .f32 = 32 ∨ (Rect.block (s := S1x8192) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S8192x2048.size a
  hwx0_7 : ∀ i : grid0.Coords, EltTy.bits .bf16 = 32 ∨ (Rect.block (s := S8192x2048) S256x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S8192x2048.size a
  hwx0_9 : ∀ i : grid0.Coords, EltTy.bits .f32 = 32 ∨ (Rect.block (s := S8192x2048) S512x2048.size (cc0_transform_9 i) (hinb0_9 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S512x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S2048 : Shape := ⟨1, ![2048]⟩
abbrev S2048x2048 : Shape := ⟨2, ![2048, 2048]⟩
abbrev S2048x8192 : Shape := ⟨2, ![2048, 8192]⟩
abbrev S8192 : Shape := ⟨1, ![8192]⟩
abbrev S8192x2048 : Shape := ⟨2, ![8192, 2048]⟩
abbrev S1x1x2048 : Shape := ⟨3, ![1, 1, 2048]⟩
abbrev S_ : Shape := ⟨0, ![]⟩
abbrev S4x2048 : Shape := ⟨2, ![4, 2048]⟩
abbrev S4x2048x1 : Shape := ⟨3, ![4, 2048, 1]⟩
abbrev S4x2048x8192 : Shape := ⟨3, ![4, 2048, 8192]⟩
abbrev S1x1x8192 : Shape := ⟨3, ![1, 1, 8192]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x8192, .f32⟩
  | .hbm, ⟨8, _⟩ => ⟨S8192, .f32⟩
  | .hbm, ⟨9, _⟩ => ⟨S8192x2048, .f32⟩
  | .hbm, ⟨10, _⟩ => ⟨S2048, .f32⟩
  | .hbm, ⟨11, _⟩ => ⟨S1x1x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S1x1x2048, .f32⟩
  | .hbm, ⟨39, _⟩ => ⟨S4x2048x2048, .f32⟩
  | .hbm, ⟨40, _⟩ => ⟨S4x2048x2048, .f32⟩
  | .hbm, ⟨41, _⟩ => ⟨S1x1x2048, .f32⟩
  | .hbm, ⟨42, _⟩ => ⟨S4x2048x2048, .f32⟩
  | .hbm, ⟨43, _⟩ => ⟨S4x2048x2048, .f32⟩
  | .hbm, ⟨44, _⟩ => ⟨S4x2048x8192, .f32⟩
  | .hbm, ⟨45, _⟩ => ⟨S1x1x8192, .f32⟩
  | .hbm, ⟨46, _⟩ => ⟨S4x2048x8192, .f32⟩
  | .hbm, ⟨47, _⟩ => ⟨S4x2048x8192, .f32⟩
  | .hbm, ⟨48, _⟩ => ⟨S_, .f32⟩
  | .hbm, ⟨49, _⟩ => ⟨S4x2048x8192, .f32⟩
  | .hbm, ⟨50, _⟩ => ⟨S4x2048x8192, .f32⟩
  | .hbm, ⟨51, _⟩ => ⟨S4x2048x2048, .f32⟩
  | .hbm, ⟨52, _⟩ => ⟨S1x1x2048, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  dot_S4x2048x2048_S2048x8192_S4x2048x8192_2_0_01_1_n_n_wf : DotDims.WF S4x2048x2048 S2048x8192 S4x2048x8192 [2] [0] [0, 1] [1] [] []
  dot_S4x2048x8192_S8192x2048_S4x2048x2048_2_0_01_1_n_n_wf : DotDims.WF S4x2048x8192 S8192x2048 S4x2048x2048 [2] [0] [0, 1] [1] [] []

variable [Facts₀]

def dot_S4x2048x2048_S2048x8192_S4x2048x8192_2_0_01_1_n_n : DotDims S4x2048x2048 S2048x8192 S4x2048x8192 where
  lhsContracting := [2]
  rhsContracting := [0]
  lhsNonContracting := [0, 1]
  rhsNonContracting := [1]
  lhsBatch := []
  rhsBatch := []
  wf := dot_S4x2048x2048_S2048x8192_S4x2048x8192_2_0_01_1_n_n_wf
def dot_S4x2048x8192_S8192x2048_S4x2048x2048_2_0_01_1_n_n : DotDims S4x2048x8192 S8192x2048 S4x2048x2048 where
  lhsContracting := [2]
  rhsContracting := [0]
  lhsNonContracting := [0, 1]
  rhsNonContracting := [1]
  lhsBatch := []
  rhsBatch := []
  wf := dot_S4x2048x8192_S8192x2048_S4x2048x2048_2_0_01_1_n_n_wf

class Facts : Prop extends Facts₀ where

variable [Facts]
-- ==== Proof.MlpSpec.lean ====
/-
  The mathematics of one row of the fused layer-norm + two-layer perceptron, on the extended reals.

  A row `x` of 2048 lanes is normalised (`normed`: subtract the mean, scale by the reciprocal square root of the
  variance plus a literal, multiply by a gain and add an offset, lane by lane), pushed through the first matrix with a
  bias and clamped below at zero (`hiddenRow`, 8192 lanes), and pulled back through the second matrix with a bias, the
  row itself added at the end (`result`).

  The second product is a sum over the 8192 hidden lanes. Cut into 32 consecutive runs of 256 lanes (`run`), and
  added up run after run (`upto`), it is the same sum: addition of extended reals is commutative and associative,
  so no finiteness is needed (`upto_last`).
-/
import Idealize.ShloMosaic.PureOps.Ideal
import Idealize.ShloMosaic.PureOps.Ideal.Laws

noncomputable section

open scoped BigOperators

namespace Cert.MlpSpec

open Idealize.ShloMosaic

/-- The mean of a row: the sum of its 2048 lanes over the literal 2048.0. -/
def mean (x : Fin 2048 → EReal) : EReal := Ideal.div (∑ k, x k) (Ideal.ofBits .f32 0x45000000#32)

/-- The variance of a row about its mean, plus the literal the programs add before the reciprocal square root. -/
def spread (x : Fin 2048 → EReal) : EReal :=
  mean (fun k => (x k - mean x) * (x k - mean x)) + Ideal.ofBits .f32 0x3727C5AC#32

/-- The normalised row with gain `g` and offset `b`. -/
def normed (x g b : Fin 2048 → EReal) (c : Fin 2048) : EReal :=
  (x c - mean x) * Ideal.rsqrt (spread x) * g c + b c

/-- The hidden activations of a normalised row `h`: first matrix, bias, clamp at zero. -/
def hiddenRow (h : Fin 2048 → EReal) (W1 : Fin 2048 → Fin 8192 → EReal) (b1 : Fin 8192 → EReal) (j : Fin 8192) : EReal :=
  max ((∑ k, h k * W1 k j) + b1 j) (Ideal.ofBits .f32 0x00000000#32)

/-- The row of the result: second matrix over all 8192 hidden lanes, bias, and the row added back. -/
def result (x : Fin 2048 → EReal) (a : Fin 8192 → EReal) (W2 : Fin 8192 → Fin 2048 → EReal) (b2 : Fin 2048 → EReal)
    (c : Fin 2048) : EReal :=
  ((∑ j, a j * W2 j c) + b2 c) + x c

/-- Hidden lane `256 s + j` of run `s`. -/
def lane (s : Fin 32) (j : Fin 256) : Fin 8192 := ⟨256 * s.val + j.val, by have := s.isLt; have := j.isLt; omega⟩

/-- Run `s`'s share of the second product at lane `c` (zero past the last run). -/
def run (a : Fin 8192 → EReal) (W2 : Fin 8192 → Fin 2048 → EReal) (c : Fin 2048) (s : ℕ) : EReal :=
  if h : s < 32 then ∑ j : Fin 256, a (lane ⟨s, h⟩ j) * W2 (lane ⟨s, h⟩ j) c else 0

/-- The runs `0 … n` added up. -/
def upto (a : Fin 8192 → EReal) (W2 : Fin 8192 → Fin 2048 → EReal) (c : Fin 2048) (n : ℕ) : EReal :=
  ∑ s ∈ Finset.range (n + 1), run a W2 c s

theorem upto_zero (a : Fin 8192 → EReal) (W2 : Fin 8192 → Fin 2048 → EReal) (c : Fin 2048) :
    upto a W2 c 0 = run a W2 c 0 := by
  unfold upto; rw [Finset.sum_range_one]

theorem upto_succ (a : Fin 8192 → EReal) (W2 : Fin 8192 → Fin 2048 → EReal) (c : Fin 2048) (n : ℕ) :
    upto a W2 c (n + 1) = upto a W2 c n + run a W2 c (n + 1) := by
  unfold upto; rw [Finset.sum_range_succ _ (n + 1)]

/-- All 32 runs together are the whole sum over the hidden lanes. -/
theorem upto_last (a : Fin 8192 → EReal) (W2 : Fin 8192 → Fin 2048 → EReal) (c : Fin 2048) :
    upto a W2 c 31 = ∑ j, a j * W2 j c := by
  unfold upto
  rw [Finset.sum_range (fun s => run a W2 c s)]
  rw [← Equiv.sum_comp (finProdFinEquiv : Fin 32 × Fin 256 ≃ Fin 8192) (fun j => a j * W2 j c), Fintype.sum_prod_type]
  refine Finset.sum_congr rfl fun s _ => ?_
  unfold run
  rw [dif_pos s.isLt]
  refine Finset.sum_congr rfl fun j _ => ?_
  have hl : lane ⟨s.val, s.isLt⟩ j = (finProdFinEquiv : Fin 32 × Fin 256 ≃ Fin 8192) (s, j) :=
    Fin.ext (by show 256 * s.val + j.val = j.val + 256 * s.val; omega)
  rw [hl]

end Cert.MlpSpec

end
-- ==== Proof.BodyValues.lean ====
/-
  The values the kernel body computes, read at one element, on the extended reals.

  The body's arithmetic comes in four pieces. Each is restated here over named parts and then read at row `r`,
  lane `c` of its block:
  * the normalised block (`normBlock`): row `r` of the sum block `x + bias + residual` normalised with gain and
    offset — `MlpSpec.normed` of that row;
  * one accumulation step (`accStep` over `hiddenBlock`): the accumulator plus, over the 256 hidden lanes of the
    current run, the clamped first product times the second matrix's rows;
  * the closing sum (`finish`): accumulator plus output bias plus the sum block;
  * the zero block the accumulator starts from.
-/
import proofs.«128220_j37125697307027_2_alg».proof.Proof.Gen.KernelIdeal.Skeleton
import proofs.«128220_j37125697307027_2_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.MlpSpec

/-! ## Layout steps at an element -/

/-- A column of 512 entries recast as a 512 × 1 block reads its entry. -/
theorem column_apply {α : Type} (v : S512.Idx → α) (h : S512.ShapeCasts S512x1) (r : Fin 512) (z : Fin 1) :
    shapeCast S512x1 v h (ix2 r z) = v (ix1 r) :=
  shapeCast_apply v h (ix2 r z) (ix1 r) (by
    rw [Shape.rowMajor_val_two, Shape.rowMajor_val_one]
    show r.val = r.val * 1 + z.val
    have := z.isLt; omega)

/-- A 512 × 1 block spread over 2048 lanes reads its row's one entry. -/
theorem spread_apply {α : Type} (v : S512x1.Idx → α) (h : S512x1.Broadcasts S512x2048) (r : Fin 512) (c : Fin 2048) :
    broadcastTo S512x2048 v h (ix2 r c) = v (ix2 r (0 : Fin 1)) := by
  refine broadcastTo_apply v h (ix2 r c) (ix2 r (0 : Fin 1)) fun ax => ?_
  match ax with
  | ⟨0, _⟩ => show r.val = if (512 : ℕ) = 1 then 0 else r.val; rw [if_neg (by decide)]
  | ⟨1, _⟩ => show (0 : ℕ) = if (1 : ℕ) = 1 then 0 else c.val; rw [if_pos rfl]

/-! ## The sum block and its normalisation -/

/-- Row `r` of the sum block, lane by lane: input plus bias plus residual. -/
abbrev rowx (x0 : FVec Ideal S512x2048 .f32) (x2 : FVec Ideal S1x2048 .f32) (x1 : FVec Ideal S512x2048 .f32) (r : Fin 512) :
    Fin 2048 → EReal :=
  fun k => (x0 (ix2 r k) + x2 (ix2 (0 : Fin 1) k)) + x1 (ix2 r k)

/-- The sum block. -/
def sumBlock (x0 : FVec Ideal S512x2048 .f32) (x2 : FVec Ideal S1x2048 .f32) (x1 : FVec Ideal S512x2048 .f32) :
    FVec Ideal S512x2048 .f32 :=
  addf (addf x0 (broadcastTo S512x2048 x2 broadcasts_S1x2048_S512x2048)) x1

theorem sumBlock_apply (x0 : FVec Ideal S512x2048 .f32) (x2 : FVec Ideal S1x2048 .f32) (x1 : FVec Ideal S512x2048 .f32)
    (r : Fin 512) (c : Fin 2048) : sumBlock x0 x2 x1 (ix2 r c) = rowx x0 x2 x1 r c := by
  unfold sumBlock
  rw [addf_apply, addf_apply, broadcastTo_1b_ab_apply]

/-- The row means of a block, kept as a 512 × 1 column. -/
def rowMean (v : FVec Ideal S512x2048 .f32) : FVec Ideal S512x1 .f32 :=
  divf (shapeCast S512x1 (multiReduction .add [1] S512 v 0x00000000#32 reduces_S512x2048_S512 (.inl rfl) rfl)
    shapeCasts_S512_S512x1) (broadcast S512x1 (Scalar.ofBits .f32 0x45000000#32))

theorem rowMean_apply (v : FVec Ideal S512x2048 .f32) (r : Fin 512) (z : Fin 1) :
    rowMean v (ix2 r z) = mean (fun k => v (ix2 r k)) := by
  unfold rowMean mean
  rw [divf_apply, broadcast_apply, column_apply]
  refine congrArg (fun s => Ideal.div s (Ideal.ofBits .f32 0x45000000#32)) ?_
  refine (Ideal.multiReduction_add_single v 0x00000000#32 reduces_S512x2048_S512 (.inl rfl) rfl (ix1 r)).trans ?_
  exact Finset.sum_congr rfl fun k _ => congrArg v (funext fun a => Fin.ext (by
    match a with
    | ⟨0, _⟩ => rfl
    | ⟨1, _⟩ => rfl))

/-- A block with each row's mean taken off. -/
def centred (v : FVec Ideal S512x2048 .f32) : FVec Ideal S512x2048 .f32 :=
  subf v (broadcastTo S512x2048 (rowMean v) broadcasts_S512x1_S512x2048)

theorem centred_apply (v : FVec Ideal S512x2048 .f32) (r : Fin 512) (c : Fin 2048) :
    centred v (ix2 r c) = v (ix2 r c) - mean (fun k => v (ix2 r k)) := by
  unfold centred
  rw [subf_apply, spread_apply, rowMean_apply]

/-- Each row's reciprocal standard deviation, as a 512 × 1 column. -/
def rstd (v : FVec Ideal S512x2048 .f32) : FVec Ideal S512x1 .f32 :=
  rsqrt (addf (rowMean (mulf (centred v) (centred v))) (broadcast S512x1 (Scalar.ofBits .f32 0x3727C5AC#32)))

theorem rstd_apply (v : FVec Ideal S512x2048 .f32) (r : Fin 512) (z : Fin 1) :
    rstd v (ix2 r z) = Ideal.rsqrt (spread (fun k => v (ix2 r k))) := by
  unfold rstd spread
  show Ideal.rsqrt (rowMean (mulf (centred v) (centred v)) (ix2 r z) + Ideal.ofBits .f32 0x3727C5AC#32) = _
  rw [rowMean_apply]
  refine congrArg (fun t => Ideal.rsqrt (mean t + Ideal.ofBits .f32 0x3727C5AC#32)) (funext fun k => ?_)
  rw [mulf_apply, centred_apply]

/-- The normalised block: centred, scaled, with gain row `x3` and offset row `x4`. -/
def normBlock (x0 : FVec Ideal S512x2048 .f32) (x2 : FVec Ideal S1x2048 .f32) (x1 : FVec Ideal S512x2048 .f32)
    (x3 x4 : FVec Ideal S1x2048 .f32) : FVec Ideal S512x2048 .bf16 :=
  truncf .bf16 (addf (mulf (mulf (centred (sumBlock x0 x2 x1))
      (broadcastTo S512x2048 (rstd (sumBlock x0 x2 x1)) broadcasts_S512x1_S512x2048))
      (broadcastTo S512x2048 x3 broadcasts_S1x2048_S512x2048))
      (broadcastTo S512x2048 x4 broadcasts_S1x2048_S512x2048)) bitsLt_bf16_f32

theorem normBlock_apply (x0 : FVec Ideal S512x2048 .f32) (x2 : FVec Ideal S1x2048 .f32) (x1 : FVec Ideal S512x2048 .f32)
    (x3 x4 : FVec Ideal S1x2048 .f32) (r : Fin 512) (c : Fin 2048) :
    normBlock x0 x2 x1 x3 x4 (ix2 r c)
      = normed (rowx x0 x2 x1 r) (fun k => x3 (ix2 (0 : Fin 1) k)) (fun k => x4 (ix2 (0 : Fin 1) k)) c := by
  have hrow : (fun k => sumBlock x0 x2 x1 (ix2 r k)) = rowx x0 x2 x1 r := funext fun k => sumBlock_apply x0 x2 x1 r k
  unfold normBlock normed
  rw [truncf_apply, addf_apply, mulf_apply, mulf_apply, centred_apply, spread_apply, rstd_apply,
    broadcastTo_1b_ab_apply, broadcastTo_1b_ab_apply, hrow, sumBlock_apply]

/-- The printed normalisation is `normBlock`. -/
theorem pay4_eq (x0 : FVec Ideal S512x2048 .f32) (x2 : FVec Ideal S1x2048 .f32) (x1 : FVec Ideal S512x2048 .f32)
    (x3 x4 : FVec Ideal S1x2048 .f32) : k0_pay4 (F := Ideal) x0 x2 x1 x3 x4 = normBlock x0 x2 x1 x3 x4 := by
  unfold k0_pay4 normBlock rstd centred rowMean sumBlock
  simp only [shapeCast_self]

/-! ## One accumulation step -/

/-! ### The two matrix products' operand indices, coordinate by coordinate -/

theorem first_lhs0 (i : S512x256.Idx) (q : dot_S512x2048_S2048x256_S512x256_1_0_0_1_n_n.contr.Idx) : (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl
theorem first_lhs1 (i : S512x256.Idx) (q : dot_S512x2048_S2048x256_S512x256_1_0_0_1_n_n.contr.Idx) : (dot_S512x2048_S2048x256_S512x256_1_0_0_1_n_n.lhsIdx i q 1).val = (q ⟨0, by decide⟩).val :=
  dot_S512x2048_S2048x256_S512x256_1_0_0_1_n_n.lhsIdx_val_of_single rfl i q
theorem first_rhs0 (i : S512x256.Idx) (q : dot_S512x2048_S2048x256_S512x256_1_0_0_1_n_n.contr.Idx) : (dot_S512x2048_S2048x256_S512x256_1_0_0_1_n_n.rhsIdx i q 0).val = (q ⟨0, by decide⟩).val :=
  dot_S512x2048_S2048x256_S512x256_1_0_0_1_n_n.rhsIdx_val_of_single rfl i q
theorem first_rhs1 (i : S512x256.Idx) (q : dot_S512x2048_S2048x256_S512x256_1_0_0_1_n_n.contr.Idx) : (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

theorem second_lhs0 (i : S512x2048.Idx) (q : dot_S512x256_S256x2048_S512x2048_1_0_0_1_n_n.contr.Idx) : (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide),
    dif_pos (show (0 : Fin S512x256.rank) ∈ dot_S512x256_S256x2048_S512x2048_1_0_0_1_n_n.lhsNonContracting by decide)]
  rfl
theorem second_lhs1 (i : S512x2048.Idx) (q : dot_S512x256_S256x2048_S512x2048_1_0_0_1_n_n.contr.Idx) : (dot_S512x256_S256x2048_S512x2048_1_0_0_1_n_n.lhsIdx i q 1).val = (q ⟨0, by decide⟩).val :=
  dot_S512x256_S256x2048_S512x2048_1_0_0_1_n_n.lhsIdx_val_of_single rfl i q
theorem second_rhs0 (i : S512x2048.Idx) (q : dot_S512x256_S256x2048_S512x2048_1_0_0_1_n_n.contr.Idx) : (dot_S512x256_S256x2048_S512x2048_1_0_0_1_n_n.rhsIdx i q 0).val = (q ⟨0, by decide⟩).val :=
  dot_S512x256_S256x2048_S512x2048_1_0_0_1_n_n.rhsIdx_val_of_single rfl i q
theorem second_rhs1 (i : S512x2048.Idx) (q : dot_S512x256_S256x2048_S512x2048_1_0_0_1_n_n.contr.Idx) : (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide),
    dif_pos (show (1 : Fin S256x2048.rank) ∈ dot_S512x256_S256x2048_S512x2048_1_0_0_1_n_n.rhsNonContracting by decide)]
  rfl

/-- The first matrix product into a zero accumulator, at an element: the sum over the 2048 input lanes. -/
theorem firstProduct_apply (h : FVec Ideal S512x2048 .bf16) (w1 : FVec Ideal S2048x256 .bf16) (r : Fin 512) (j : Fin 256) :
    matmul dot_S512x2048_S2048x256_S512x256_1_0_0_1_n_n none h w1 (constant S512x256 .f32 0x00000000#32) (ix2 r j)
      = ∑ k : Fin 2048, h (ix2 r k) * w1 (ix2 k j) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 r j) ((contrEquiv1 dot_S512x2048_S2048x256_S512x256_1_0_0_1_n_n 2048 rfl rfl).symm k) = ix2 r k :=
    funext fun a => Fin.ext (by
      match a with
      | ⟨0, _⟩ => exact first_lhs0 _ _
      | ⟨1, _⟩ => exact (first_lhs1 _ _).trans hk)
  have er : dot_S512x2048_S2048x256_S512x256_1_0_0_1_n_n.rhsIdx (ix2 r j) ((contrEquiv1 dot_S512x2048_S2048x256_S512x256_1_0_0_1_n_n 2048 rfl rfl).symm k) = ix2 k j :=
    funext fun a => Fin.ext (by
      match a with
      | ⟨0, _⟩ => exact (first_rhs0 _ _).trans hk
      | ⟨1, _⟩ => exact first_rhs1 _ _)
  rw [el, er]

/-- The second matrix product into a zero accumulator, at an element: the sum over the run's 256 hidden lanes. -/
theorem secondProduct_apply (a : FVec Ideal S512x256 .bf16) (w2 : FVec Ideal S256x2048 .bf16) (r : Fin 512) (c : Fin 2048) :
    matmul dot_S512x256_S256x2048_S512x2048_1_0_0_1_n_n none a w2 (constant S512x2048 .f32 0x00000000#32) (ix2 r c)
      = ∑ k : Fin 256, a (ix2 r k) * w2 (ix2 k c) := by
  simp only [matmul]
  rw [Ideal.matmul_constant_zero_apply, ← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 r c) ((contrEquiv1 dot_S512x256_S256x2048_S512x2048_1_0_0_1_n_n 256 rfl rfl).symm k) = ix2 r k :=
    funext fun a => Fin.ext (by
      match a with
      | ⟨0, _⟩ => exact second_lhs0 _ _
      | ⟨1, _⟩ => exact (second_lhs1 _ _).trans hk)
  have er : dot_S512x256_S256x2048_S512x2048_1_0_0_1_n_n.rhsIdx (ix2 r c) ((contrEquiv1 dot_S512x256_S256x2048_S512x2048_1_0_0_1_n_n 256 rfl rfl).symm k) = ix2 k c :=
    funext fun a => Fin.ext (by
      match a with
      | ⟨0, _⟩ => exact (second_rhs0 _ _).trans hk
      | ⟨1, _⟩ => exact second_rhs1 _ _)
  rw [el, er]

/-- The hidden activations of a block for one run of 256 hidden lanes. -/
def hiddenBlock (h : FVec Ideal S512x2048 .bf16) (w1 : FVec Ideal S2048x256 .bf16) (b1 : FVec Ideal S1x256 .f32) :
    FVec Ideal S512x256 .f32 :=
  maximumf (addf (matmul dot_S512x2048_S2048x256_S512x256_1_0_0_1_n_n none h w1 (constant S512x256 .f32 0x00000000#32))
      (broadcastTo S512x256 b1 broadcasts_S1x256_S512x256))
    (broadcast S512x256 (Scalar.ofBits .f32 0x00000000#32))

theorem hiddenBlock_apply (h : FVec Ideal S512x2048 .bf16) (w1 : FVec Ideal S2048x256 .bf16) (b1 : FVec Ideal S1x256 .f32)
    (r : Fin 512) (j : Fin 256) :
    hiddenBlock h w1 b1 (ix2 r j)
      = max ((∑ k : Fin 2048, h (ix2 r k) * w1 (ix2 k j)) + b1 (ix2 (0 : Fin 1) j)) (Ideal.ofBits .f32 0x00000000#32) := by
  unfold hiddenBlock
  rw [maximumf_apply, addf_apply, firstProduct_apply, broadcastTo_1b_ab_apply]
  rfl

/-- One accumulation step: the accumulator plus the run's share of the second product. -/
def accStep (acc : FVec Ideal S512x2048 .f32) (a : FVec Ideal S512x256 .f32) (w2 : FVec Ideal S256x2048 .bf16) :
    FVec Ideal S512x2048 .f32 :=
  addf acc (matmul dot_S512x256_S256x2048_S512x2048_1_0_0_1_n_n none (truncf .bf16 a bitsLt_bf16_f32) w2
    (constant S512x2048 .f32 0x00000000#32))

theorem accStep_apply (acc : FVec Ideal S512x2048 .f32) (a : FVec Ideal S512x256 .f32) (w2 : FVec Ideal S256x2048 .bf16)
    (r : Fin 512) (c : Fin 2048) :
    accStep acc a w2 (ix2 r c) = acc (ix2 r c) + ∑ j : Fin 256, a (ix2 r j) * w2 (ix2 j c) := by
  unfold accStep
  rw [addf_apply, secondProduct_apply]
  rfl

/-- The printed accumulation step is `accStep` over `hiddenBlock`. -/
theorem pay2_eq (h : FVec Ideal S512x2048 .bf16) (w1 : FVec Ideal S2048x256 .bf16) (b1 : FVec Ideal S1x256 .f32)
    (acc : FVec Ideal S512x2048 .f32) (w2 : FVec Ideal S256x2048 .bf16) :
    k0_pay2 (F := Ideal) h w1 b1 acc w2 = accStep acc (hiddenBlock h w1 b1) w2 := by
  unfold k0_pay2 accStep hiddenBlock
  simp only [shapeCast_self]

/-! ## The closing sum and the zero block -/

/-- Accumulator plus output bias plus the sum block. -/
def finish (x0 : FVec Ideal S512x2048 .f32) (x2 : FVec Ideal S1x2048 .f32) (x1 : FVec Ideal S512x2048 .f32)
    (acc : FVec Ideal S512x2048 .f32) (x8 : FVec Ideal S1x2048 .f32) : FVec Ideal S512x2048 .f32 :=
  addf (addf acc (broadcastTo S512x2048 x8 broadcasts_S1x2048_S512x2048)) (sumBlock x0 x2 x1)

theorem finish_apply (x0 : FVec Ideal S512x2048 .f32) (x2 : FVec Ideal S1x2048 .f32) (x1 : FVec Ideal S512x2048 .f32)
    (acc : FVec Ideal S512x2048 .f32) (x8 : FVec Ideal S1x2048 .f32) (r : Fin 512) (c : Fin 2048) :
    finish x0 x2 x1 acc x8 (ix2 r c) = (acc (ix2 r c) + x8 (ix2 (0 : Fin 1) c)) + rowx x0 x2 x1 r c := by
  unfold finish
  rw [addf_apply, addf_apply, broadcastTo_1b_ab_apply, sumBlock_apply]

theorem pay3_eq (x0 : FVec Ideal S512x2048 .f32) (x2 : FVec Ideal S1x2048 .f32) (x1 : FVec Ideal S512x2048 .f32)
    (acc : FVec Ideal S512x2048 .f32) (x8 : FVec Ideal S1x2048 .f32) :
    k0_pay3 (F := Ideal) x0 x2 x1 acc x8 = finish x0 x2 x1 acc x8 := by
  unfold k0_pay3 finish sumBlock
  simp only [shapeCast_self]

/-- The block the accumulator is reset to is zero everywhere. -/
theorem zeroBlock_apply (i : S512x2048.Idx) : k0_pay1 (F := Ideal) (k0_pay5 (F := Ideal)) i = 0 := by
  unfold k0_pay1 k0_pay5
  simp only [shapeCast_self]
  exact Ideal.ofBits_zero_f32

end Cert.KernelIdeal.Body

end
-- ==== Proof.CaseValues.lean ====
/-
  What each control case of the kernel body leaves behind, as the body's own arithmetic.

  The body has three cases. At the first hidden run of a row block it writes the normalised block into one carried
  buffer and, into the other, one accumulation step taken from the zero block. At every later run it leaves the
  normalised block alone and takes one more accumulation step from what the run before left. At the last run it also
  writes the output block: the closing sum over the accumulator it has just updated.
  Each statement holds for any float instance: only loads and stores are resolved, no arithmetic is opened.
-/
import proofs.«128220_j37125697307027_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-- First run: the normalised block is stored in the second carried buffer. -/
theorem normScratch_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x256 .bf16) (harg7 : arg7.IsWhole) (arg8 : Memref sig .tc .vmem S1x256 .f32) (harg8 : arg8.IsWhole) (arg9 : Memref sig .tc .vmem S256x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole) (hc0 : cond0_0 i) (hc1 : ¬cond0_1 i) (x0 : Vec F S512x2048 .f32) (x1 : Vec F S512x2048 .f32) (x2 : Vec F S1x2048 .f32) (x3 : Vec F S1x2048 .f32) (x4 : Vec F S1x2048 .f32) (x5 : Vec F S2048x256 .bf16) (x6 : Vec F S1x256 .f32) (x7 : Vec F S256x2048 .bf16) (x8 : Vec F S1x2048 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay4 x0 x2 x1 x3 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_unit_zero (S := S512x2048) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x256) hz, View.ld_unit_zero (S := S1x256) hz, View.ld_unit_zero (S := S256x2048) hz]

/-- First run: the accumulator is one step from the zero block, over the block just normalised. -/
theorem accScratch_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x256 .bf16) (harg7 : arg7.IsWhole) (arg8 : Memref sig .tc .vmem S1x256 .f32) (harg8 : arg8.IsWhole) (arg9 : Memref sig .tc .vmem S256x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole) (hc0 : cond0_0 i) (hc1 : ¬cond0_1 i) (x0 : Vec F S512x2048 .f32) (x1 : Vec F S512x2048 .f32) (x2 : Vec F S1x2048 .f32) (x3 : Vec F S1x2048 .f32) (x4 : Vec F S1x2048 .f32) (x5 : Vec F S2048x256 .bf16) (x6 : Vec F S1x256 .f32) (x7 : Vec F S256x2048 .bf16) (x8 : Vec F S1x2048 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay2 (k0_pay4 x0 x2 x1 x3 x4) x5 x6 (k0_pay1 k0_pay5) x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S512x2048) hz]
  rw [View.readCov_unit_zero (S := S512x2048) _ hz, View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x256) hz, View.ld_unit_zero (S := S1x256) hz, View.ld_unit_zero (S := S256x2048) hz]

/-- A middle run: one more step from the accumulator `xs0` over the kept normalised block `xs1`. -/
theorem accScratch_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x256 .bf16) (harg7 : arg7.IsWhole) (arg8 : Memref sig .tc .vmem S1x256 .f32) (harg8 : arg8.IsWhole) (arg9 : Memref sig .tc .vmem S256x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole) (hc0 : ¬cond0_0 i) (hc1 : ¬cond0_1 i) (x0 : Vec F S512x2048 .f32) (x1 : Vec F S512x2048 .f32) (x2 : Vec F S1x2048 .f32) (x3 : Vec F S1x2048 .f32) (x4 : Vec F S1x2048 .f32) (x5 : Vec F S2048x256 .bf16) (x6 : Vec F S1x256 .f32) (x7 : Vec F S256x2048 .bf16) (x8 : Vec F S1x2048 .f32) (xs0 : Vec F S512x2048 .f32) (xs1 : Vec F S512x2048 .bf16) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay2 xs1 x5 x6 xs0 x7 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  rw [View.canon_unit_zero (S := S512x2048) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x256) hz, View.ld_unit_zero (S := S1x256) hz, View.ld_unit_zero (S := S256x2048) hz]

/-- The last run: the same step. -/
theorem accScratch_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x256 .bf16) (harg7 : arg7.IsWhole) (arg8 : Memref sig .tc .vmem S1x256 .f32) (harg8 : arg8.IsWhole) (arg9 : Memref sig .tc .vmem S256x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole) (hc0 : ¬cond0_0 i) (hc1 : cond0_1 i) (x0 : Vec F S512x2048 .f32) (x1 : Vec F S512x2048 .f32) (x2 : Vec F S1x2048 .f32) (x3 : Vec F S1x2048 .f32) (x4 : Vec F S1x2048 .f32) (x5 : Vec F S2048x256 .bf16) (x6 : Vec F S1x256 .f32) (x7 : Vec F S256x2048 .bf16) (x8 : Vec F S1x2048 .f32) (xs0 : Vec F S512x2048 .f32) (xs1 : Vec F S512x2048 .bf16) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay2 xs1 x5 x6 xs0 x7 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero (S := S512x2048) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x256) hz, View.ld_unit_zero (S := S1x256) hz, View.ld_unit_zero (S := S256x2048) hz]

/-- The last run: the output block is the closing sum over the accumulator after that step. -/
theorem out_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x256 .bf16) (harg7 : arg7.IsWhole) (arg8 : Memref sig .tc .vmem S1x256 .f32) (harg8 : arg8.IsWhole) (arg9 : Memref sig .tc .vmem S256x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole) (hc0 : ¬cond0_0 i) (hc1 : cond0_1 i) (x0 : Vec F S512x2048 .f32) (x1 : Vec F S512x2048 .f32) (x2 : Vec F S1x2048 .f32) (x3 : Vec F S1x2048 .f32) (x4 : Vec F S1x2048 .f32) (x5 : Vec F S2048x256 .bf16) (x6 : Vec F S1x256 .f32) (x7 : Vec F S256x2048 .bf16) (x8 : Vec F S1x2048 .f32) (xs0 : Vec F S512x2048 .f32) (xs1 : Vec F S512x2048 .bf16) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay3 x0 x2 x1 (k0_pay2 xs1 x5 x6 xs0 x7) x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero (S := S512x2048) hz]
  rw [View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x256) hz, View.ld_unit_zero (S := S1x256) hz, View.ld_unit_zero (S := S256x2048) hz]

end Cert.KernelIdeal.Pieces
end
-- ==== Proof.Blocks.lean ====
/-
  Where each window's block sits in its array.

  The grid has 16 row tiles of 512 rows and, inside each, 32 runs of 256 hidden lanes; point `t` is row tile
  `t / 32`, run `t % 32`. The two activation windows and the output window hold rows `512·(t/32) …` of their
  arrays; the first matrix and its bias are read at hidden lanes `256·(t%32) …`, the second matrix at those rows;
  the four parameter rows are read whole at every point.
-/
import proofs.«128220_j37125697307027_2_alg».proof.Proof.Gen.KernelIdeal.Frame
import proofs.«128220_j37125697307027_2_alg».proof.Proof.MlpSpec
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.MlpSpec

variable {F : FTy → Type} [FloatOps F]
variable (m : (ℓ : Loc nD τ sig) → Buf (Elt F) ℓ)

/-- Row `r` of row tile `q`, as a row of the whole 8192-row arrays. -/
def rowIn (q : Fin 16) (r : Fin 512) : Fin 8192 := ⟨512 * q.val + r.val, by have := q.isLt; have := r.isLt; omega⟩

/-! ## The arrays as the region finds them, by what they hold -/

def arrX (c : Dev nD) : S8192x2048.Idx → F .f32 := V m c main_v0
def arrRes (c : Dev nD) : S8192x2048.Idx → F .f32 := V m c main_v1
def arrBias (c : Dev nD) : S1x2048.Idx → F .f32 := V m c main_v2
def arrGain (c : Dev nD) : S1x2048.Idx → F .f32 := V m c main_v3
def arrOffset (c : Dev nD) : S1x2048.Idx → F .f32 := V m c main_v4
def arrW1 (c : Dev nD) : S2048x8192.Idx → F .bf16 := V m c main_v7
def arrB1 (c : Dev nD) : S1x8192.Idx → F .f32 := V m c main_v5
def arrW2 (c : Dev nD) : S8192x2048.Idx → F .bf16 := V m c main_v8
def arrB2 (c : Dev nD) : S1x2048.Idx → F .f32 := V m c main_v6

/-- The printed index maps, decided once over the 512 grid points. -/
theorem idx_facts : ∀ t : Fin cfg0.N,
    win0_0.index t (0 : Fin 2) = t.val / 32 ∧ win0_0.index t (1 : Fin 2) = 0
    ∧ win0_1.index t (0 : Fin 2) = t.val / 32 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val % 32
    ∧ win0_6.index t (0 : Fin 2) = 0 ∧ win0_6.index t (1 : Fin 2) = t.val % 32
    ∧ win0_7.index t (0 : Fin 2) = t.val % 32 ∧ win0_7.index t (1 : Fin 2) = 0
    ∧ win0_8.index t (0 : Fin 2) = 0 ∧ win0_8.index t (1 : Fin 2) = 0
    ∧ win0_9.index t (0 : Fin 2) = t.val / 32 ∧ win0_9.index t (1 : Fin 2) = 0 :=
  (by decide +kernel : ∀ t : Fin grid0.N, _)

/-- The input block at point `t`: rows of row tile `t / 32`. -/
theorem xBlock_apply (c : Dev nD) (t : Fin cfg0.N) (q : Fin 16) (hq : q.val = t.val / 32) (r : Fin 512) (k : Fin 2048) :
    (iblk m c 0 t : Vec F S512x2048 .f32) (ix2 r k) = arrX m c (ix2 (rowIn q r) k) := by
  have hi := idx_facts t
  unfold iblk arrX
  rw [View.read_apply]
  show V m c main_v0 _ = V m c main_v0 _
  congr 1
  funext a
  apply Fin.ext
  match a with
  | ⟨0, _⟩ => show win0_0.index t 0 * 512 + 1 * r.val = 512 * q.val + r.val; rw [hi.1, hq]; omega
  | ⟨1, _⟩ => show win0_0.index t 1 * 2048 + 1 * k.val = k.val; rw [hi.2.1]; omega

/-- The residual block at point `t`: the same rows. -/
theorem resBlock_apply (c : Dev nD) (t : Fin cfg0.N) (q : Fin 16) (hq : q.val = t.val / 32) (r : Fin 512) (k : Fin 2048) :
    (iblk m c 1 t : Vec F S512x2048 .f32) (ix2 r k) = arrRes m c (ix2 (rowIn q r) k) := by
  have hi := idx_facts t
  unfold iblk arrRes
  rw [View.read_apply]
  show V m c main_v1 _ = V m c main_v1 _
  congr 1
  funext a
  apply Fin.ext
  match a with
  | ⟨0, _⟩ => show win0_1.index t 0 * 512 + 1 * r.val = 512 * q.val + r.val; rw [hi.2.2.1, hq]; omega
  | ⟨1, _⟩ => show win0_1.index t 1 * 2048 + 1 * k.val = k.val; rw [hi.2.2.2.1]; omega

/-- The bias row is read whole at every point. -/
theorem biasRow_apply (c : Dev nD) (t : Fin cfg0.N) (k : Fin 2048) :
    (iblk m c 2 t : Vec F S1x2048 .f32) (ix2 (0 : Fin 1) k) = arrBias m c (ix2 (0 : Fin 1) k) := by
  have hi := idx_facts t
  unfold iblk arrBias
  rw [View.read_apply]
  show V m c main_v2 _ = V m c main_v2 _
  congr 1
  funext a
  apply Fin.ext
  match a with
  | ⟨0, _⟩ => show win0_2.index t 0 * 1 + 1 * 0 = 0; rw [hi.2.2.2.2.1]
  | ⟨1, _⟩ => show win0_2.index t 1 * 2048 + 1 * k.val = k.val; rw [hi.2.2.2.2.2.1]; omega

/-- The gain row is read whole at every point. -/
theorem gainRow_apply (c : Dev nD) (t : Fin cfg0.N) (k : Fin 2048) :
    (iblk m c 3 t : Vec F S1x2048 .f32) (ix2 (0 : Fin 1) k) = arrGain m c (ix2 (0 : Fin 1) k) := by
  have hi := idx_facts t
  unfold iblk arrGain
  rw [View.read_apply]
  show V m c main_v3 _ = V m c main_v3 _
  congr 1
  funext a
  apply Fin.ext
  match a with
  | ⟨0, _⟩ => show win0_3.index t 0 * 1 + 1 * 0 = 0; rw [hi.2.2.2.2.2.2.1]
  | ⟨1, _⟩ => show win0_3.index t 1 * 2048 + 1 * k.val = k.val; rw [hi.2.2.2.2.2.2.2.1]; omega

/-- The offset row is read whole at every point. -/
theorem offsetRow_apply (c : Dev nD) (t : Fin cfg0.N) (k : Fin 2048) :
    (iblk m c 4 t : Vec F S1x2048 .f32) (ix2 (0 : Fin 1) k) = arrOffset m c (ix2 (0 : Fin 1) k) := by
  have hi := idx_facts t
  unfold iblk arrOffset
  rw [View.read_apply]
  show V m c main_v4 _ = V m c main_v4 _
  congr 1
  funext a
  apply Fin.ext
  match a with
  | ⟨0, _⟩ => show win0_4.index t 0 * 1 + 1 * 0 = 0; rw [hi.2.2.2.2.2.2.2.2.1]
  | ⟨1, _⟩ => show win0_4.index t 1 * 2048 + 1 * k.val = k.val; rw [hi.2.2.2.2.2.2.2.2.2.1]; omega

/-- The output bias row is read whole at every point. -/
theorem outBiasRow_apply (c : Dev nD) (t : Fin cfg0.N) (k : Fin 2048) :
    (iblk m c 8 t : Vec F S1x2048 .f32) (ix2 (0 : Fin 1) k) = arrB2 m c (ix2 (0 : Fin 1) k) := by
  have hi := idx_facts t
  unfold iblk arrB2
  rw [View.read_apply]
  show V m c main_v6 _ = V m c main_v6 _
  congr 1
  funext a
  apply Fin.ext
  match a with
  | ⟨0, _⟩ => show win0_8.index t 0 * 1 + 1 * 0 = 0; rw [hi.2.2.2.2.2.2.2.2.2.2.2.2.2.2.2.2.1]
  | ⟨1, _⟩ => show win0_8.index t 1 * 2048 + 1 * k.val = k.val; rw [hi.2.2.2.2.2.2.2.2.2.2.2.2.2.2.2.2.2.1]; omega

/-- The first matrix's block at point `t`: all 2048 rows, the hidden lanes of run `t % 32`. -/
theorem w1Block_apply (c : Dev nD) (t : Fin cfg0.N) (s : Fin 32) (hs : s.val = t.val % 32) (k : Fin 2048) (j : Fin 256) :
    (iblk m c 5 t : Vec F S2048x256 .bf16) (ix2 k j) = arrW1 m c (ix2 k (lane s j)) := by
  have hi := idx_facts t
  unfold iblk arrW1
  rw [View.read_apply]
  show V m c main_v7 _ = V m c main_v7 _
  congr 1
  funext a
  apply Fin.ext
  match a with
  | ⟨0, _⟩ => show win0_5.index t 0 * 2048 + 1 * k.val = k.val; rw [hi.2.2.2.2.2.2.2.2.2.2.1]; omega
  | ⟨1, _⟩ => show win0_5.index t 1 * 256 + 1 * j.val = 256 * s.val + j.val; rw [hi.2.2.2.2.2.2.2.2.2.2.2.1, hs]; omega

/-- The first bias's block at point `t`: the hidden lanes of run `t % 32`. -/
theorem b1Block_apply (c : Dev nD) (t : Fin cfg0.N) (s : Fin 32) (hs : s.val = t.val % 32) (j : Fin 256) :
    (iblk m c 6 t : Vec F S1x256 .f32) (ix2 (0 : Fin 1) j) = arrB1 m c (ix2 (0 : Fin 1) (lane s j)) := by
  have hi := idx_facts t
  unfold iblk arrB1
  rw [View.read_apply]
  show V m c main_v5 _ = V m c main_v5 _
  congr 1
  funext a
  apply Fin.ext
  match a with
  | ⟨0, _⟩ => show win0_6.index t 0 * 1 + 1 * 0 = 0; rw [hi.2.2.2.2.2.2.2.2.2.2.2.2.1]
  | ⟨1, _⟩ => show win0_6.index t 1 * 256 + 1 * j.val = 256 * s.val + j.val; rw [hi.2.2.2.2.2.2.2.2.2.2.2.2.2.1, hs]; omega

/-- The second matrix's block at point `t`: the rows of run `t % 32`, all 2048 lanes. -/
theorem w2Block_apply (c : Dev nD) (t : Fin cfg0.N) (s : Fin 32) (hs : s.val = t.val % 32) (j : Fin 256) (k : Fin 2048) :
    (iblk m c 7 t : Vec F S256x2048 .bf16) (ix2 j k) = arrW2 m c (ix2 (lane s j) k) := by
  have hi := idx_facts t
  unfold iblk arrW2
  rw [View.read_apply]
  show V m c main_v8 _ = V m c main_v8 _
  congr 1
  funext a
  apply Fin.ext
  match a with
  | ⟨0, _⟩ => show win0_7.index t 0 * 256 + 1 * j.val = 256 * s.val + j.val; rw [hi.2.2.2.2.2.2.2.2.2.2.2.2.2.2.1, hs]; omega
  | ⟨1, _⟩ => show win0_7.index t 1 * 2048 + 1 * k.val = k.val; rw [hi.2.2.2.2.2.2.2.2.2.2.2.2.2.2.2.1]; omega

end Cert.KernelIdeal.Blocks

end
-- ==== Proof.Accum.lean ====
/-
  What the two carried buffers and the output block hold after each grid point.

  Take point `t`, in row tile `q = t / 32` at run `t % 32`, and a row `r` of the tile; let `ρ = 512 q + r` be
  that row in the whole arrays. After the body at `t`
  * the second carried buffer holds, in row `r`, the normalised row `ρ` (`hrow`): written at the tile's first run
    and kept since;
  * the first carried buffer holds, in row `r`, the runs `0 … t % 32` of the second matrix product of row `ρ`'s
    hidden activations (`arow`), added up in order;
  and at the tile's last run the output block holds row `ρ` of the whole result: all 32 runs are the full sum over the
  8192 hidden lanes, the output bias and the row itself are added (`MlpSpec.result`).
  The proof is an induction on the point; the point before is in the same tile unless the run is the tile's first.
-/
import proofs.«128220_j37125697307027_2_alg».proof.Proof.BodyValues
import proofs.«128220_j37125697307027_2_alg».proof.Proof.CaseValues
import proofs.«128220_j37125697307027_2_alg».proof.Proof.Blocks

set_option maxRecDepth 16384

noncomputable section

namespace Cert.KernelIdeal.Accum

open Idealize.ShloMosaic Idealize.ShloMosaic.TcCoe Idealize.ShloMosaic.ValueIdx Idealize.SL.Sem
open Cert.KernelIdeal Cert.KernelIdeal.Gen Cert.MlpSpec Cert.KernelIdeal.Body Cert.KernelIdeal.Blocks Cert.KernelIdeal.Pieces

variable (m : (ℓ : Loc nD τ sig) → Buf (Elt Ideal) ℓ)

/-! ## The rows of the whole arrays -/

/-- Row `ρ` of input plus bias plus residual. -/
def xrow (c : Dev nD) (ρ : Fin 8192) : Fin 2048 → EReal :=
  fun k => (arrX m c (ix2 ρ k) + arrBias m c (ix2 (0 : Fin 1) k)) + arrRes m c (ix2 ρ k)

/-- Row `ρ` normalised. -/
def hrow (c : Dev nD) (ρ : Fin 8192) : Fin 2048 → EReal :=
  normed (xrow m c ρ) (fun k => arrGain m c (ix2 (0 : Fin 1) k)) (fun k => arrOffset m c (ix2 (0 : Fin 1) k))

/-- Row `ρ`'s hidden activations. -/
def arow (c : Dev nD) (ρ : Fin 8192) : Fin 8192 → EReal :=
  hiddenRow (hrow m c ρ) (fun k j => arrW1 m c (ix2 k j)) (fun j => arrB1 m c (ix2 (0 : Fin 1) j))

/-- The second matrix by hidden lane and output lane. -/
def w2f (c : Dev nD) : Fin 8192 → Fin 2048 → EReal := fun j k => arrW2 m c (ix2 j k)

/-- Row `ρ` of the whole result. -/
def outrow (c : Dev nD) (ρ : Fin 8192) : Fin 2048 → EReal :=
  result (xrow m c ρ) (arow m c ρ) (w2f m c) (fun k => arrB2 m c (ix2 (0 : Fin 1) k))

/-! ## One accumulation step against the whole arrays -/

/-- One step, when the block operands are the run's slices of whole-array functions. -/
theorem step_apply (hb : FVec Ideal S512x2048 .bf16) (w1 : FVec Ideal S2048x256 .bf16) (b1 : FVec Ideal S1x256 .f32)
    (acc : FVec Ideal S512x2048 .f32) (w2 : FVec Ideal S256x2048 .bf16)
    (hr : Fin 2048 → EReal) (W1f : Fin 2048 → Fin 8192 → EReal) (B1f : Fin 8192 → EReal) (W2f : Fin 8192 → Fin 2048 → EReal)
    (s : Fin 32) (r : Fin 512) (k : Fin 2048)
    (hh : ∀ k', hb (ix2 r k') = hr k') (hw1 : ∀ k' j, w1 (ix2 k' j) = W1f k' (lane s j))
    (hb1 : ∀ j, b1 (ix2 (0 : Fin 1) j) = B1f (lane s j)) (hw2 : ∀ j, w2 (ix2 j k) = W2f (lane s j) k) :
    k0_pay2 (F := Ideal) hb w1 b1 acc w2 (ix2 r k) = acc (ix2 r k) + run (hiddenRow hr W1f B1f) W2f k s.val := by
  rw [pay2_eq, accStep_apply]
  refine congrArg (fun z => acc (ix2 r k) + z) ?_
  unfold run
  rw [dif_pos s.isLt]
  refine Finset.sum_congr rfl fun j _ => ?_
  rw [hiddenBlock_apply, hw2]
  unfold hiddenRow
  simp only [hh, hw1, hb1, Fin.eta]

/-! ## The blocks at a point, as rows of the whole arrays -/

theorem rowx_blocks (c : Dev nD) (t : Fin cfg0.N) (q : Fin 16) (hq : q.val = t.val / 32) (r : Fin 512) :
    rowx (iblk m c 0 t) (iblk m c 2 t) (iblk m c 1 t) r = xrow m c (rowIn q r) :=
  funext fun k => by
    dsimp only [rowx, xrow]
    rw [xBlock_apply m c t q hq r k, biasRow_apply m c t k, resBlock_apply m c t q hq r k]

/-- The normalisation of the blocks at a point is the normalised row of the whole arrays. -/
theorem norm_blocks (c : Dev nD) (t : Fin cfg0.N) (q : Fin 16) (hq : q.val = t.val / 32) (r : Fin 512) (k : Fin 2048) :
    k0_pay4 (F := Ideal) (iblk m c 0 t) (iblk m c 2 t) (iblk m c 1 t) (iblk m c 3 t) (iblk m c 4 t) (ix2 r k)
      = hrow m c (rowIn q r) k := by
  refine (congrFun (pay4_eq (iblk m c 0 t) (iblk m c 2 t) (iblk m c 1 t) (iblk m c 3 t) (iblk m c 4 t)) (ix2 r k)).trans ?_
  refine (normBlock_apply (iblk m c 0 t) (iblk m c 2 t) (iblk m c 1 t) (iblk m c 3 t) (iblk m c 4 t) r k).trans ?_
  unfold hrow
  rw [rowx_blocks m c t q hq r,
    show (fun k' => iblk m c 3 t (ix2 (0 : Fin 1) k')) = fun k' => arrGain m c (ix2 (0 : Fin 1) k') from
      funext fun k' => gainRow_apply m c t k',
    show (fun k' => iblk m c 4 t (ix2 (0 : Fin 1) k')) = fun k' => arrOffset m c (ix2 (0 : Fin 1) k') from
      funext fun k' => offsetRow_apply m c t k']

/-- One step at point `t` over a buffer holding the normalised rows of its tile. -/
theorem step_blocks (c : Dev nD) (t : Fin cfg0.N) (q : Fin 16) (hq : q.val = t.val / 32)
    (hb : FVec Ideal S512x2048 .bf16) (acc : FVec Ideal S512x2048 .f32) (r : Fin 512) (k : Fin 2048)
    (hh : ∀ k', hb (ix2 r k') = hrow m c (rowIn q r) k') :
    k0_pay2 (F := Ideal) hb (iblk m c 5 t) (iblk m c 6 t) acc (iblk m c 7 t) (ix2 r k)
      = acc (ix2 r k) + run (arow m c (rowIn q r)) (w2f m c) k (t.val % 32) :=
  step_apply hb (iblk m c 5 t) (iblk m c 6 t) acc (iblk m c 7 t) (hrow m c (rowIn q r))
    (fun k' j => arrW1 m c (ix2 k' j)) (fun j => arrB1 m c (ix2 (0 : Fin 1) j)) (w2f m c)
    ⟨t.val % 32, Nat.mod_lt _ (by decide)⟩ r k hh
    (fun k' j => w1Block_apply m c t ⟨t.val % 32, Nat.mod_lt _ (by decide)⟩ rfl k' j)
    (fun j => b1Block_apply m c t ⟨t.val % 32, Nat.mod_lt _ (by decide)⟩ rfl j)
    (fun j => w2Block_apply m c t ⟨t.val % 32, Nat.mod_lt _ (by decide)⟩ rfl j k)

/-! ## The carried buffers point by point -/

/-- After point `t`: the normalised rows, and the runs so far. -/
def Holds (c : Dev nD) (t : Fin cfg0.N) : Prop :=
  ∀ q : Fin 16, q.val = t.val / 32 → ∀ (r : Fin 512) (k : Fin 2048),
    (outsAt0 m c t.val t.isLt).2.2 (ix2 r k) = hrow m c (rowIn q r) k
    ∧ (outsAt0 m c t.val t.isLt).2.1 (ix2 r k) = upto (arow m c (rowIn q r)) (w2f m c) k (t.val % 32)

/-- A tile's first run. -/
theorem holds_first (c : Dev nD) (t : Fin cfg0.N) (h0 : t.val % 32 = 0) : Holds m c t := by
  have h1 : ¬t.val % 32 = 31 := by omega
  intro q hq r k
  rw [outsAt0_A m c t h0 h1]
  dsimp only
  constructor
  · refine (congrFun (normScratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) (ix2 r k)).trans ?_
    exact norm_blocks m c t q hq r k
  · refine (congrFun (accScratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) (ix2 r k)).trans ?_
    refine (step_blocks m c t q hq _ _ r k (fun k' => norm_blocks m c t q hq r k')).trans ?_
    rw [zeroBlock_apply, zero_add, h0, upto_zero]

/-- A later run, from the point before (which is in the same tile). -/
theorem holds_later (c : Dev nD) (t : Fin cfg0.N) (h0 : ¬t.val % 32 = 0)
    (ih : ∀ q : Fin 16, q.val = t.val / 32 → ∀ (r : Fin 512) (k : Fin 2048),
      (outsAt0 m c (t.val - 1) (Nat.lt_of_le_of_lt (Nat.sub_le _ _) t.isLt)).2.2 (ix2 r k) = hrow m c (rowIn q r) k
      ∧ (outsAt0 m c (t.val - 1) (Nat.lt_of_le_of_lt (Nat.sub_le _ _) t.isLt)).2.1 (ix2 r k) = upto (arow m c (rowIn q r)) (w2f m c) k (t.val % 32 - 1)) :
    Holds m c t := by
  intro q hq r k
  have hstep : k0_pay2 (F := Ideal) (outsAt0 m c (t.val - 1) (Nat.lt_of_le_of_lt (Nat.sub_le _ _) t.isLt)).2.2 (iblk m c 5 t) (iblk m c 6 t) (outsAt0 m c (t.val - 1) (Nat.lt_of_le_of_lt (Nat.sub_le _ _) t.isLt)).2.1 (iblk m c 7 t) (ix2 r k)
      = upto (arow m c (rowIn q r)) (w2f m c) k (t.val % 32) := by
    refine (step_blocks m c t q hq _ _ r k (fun k' => (ih q hq r k').1)).trans ?_
    rw [(ih q hq r k).2]
    have e : t.val % 32 = (t.val % 32 - 1) + 1 := by omega
    rw [e, upto_succ, ← e]
  by_cases h1 : t.val % 32 = 31
  · rw [outsAt0_C m c t h0 h1]
    dsimp only
    constructor
    · exact (ih q hq r k).1
    · refine (congrFun (accScratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2) (ix2 r k)).trans ?_
      exact hstep
  · rw [outsAt0_B m c t h0 h1]
    dsimp only
    constructor
    · exact (ih q hq r k).1
    · refine (congrFun (accScratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2) (ix2 r k)).trans ?_
      exact hstep

/-- Every point, by induction: a tile's first run stands alone, a later run follows the point before. -/
theorem holds (c : Dev nD) : ∀ (n : ℕ) (h : n < cfg0.N), Holds m c ⟨n, h⟩
  | 0, h => holds_first m c ⟨0, h⟩ (Nat.zero_mod _)
  | n + 1, h => by
    by_cases h0 : (n + 1) % 32 = 0
    · exact holds_first m c ⟨n + 1, h⟩ h0
    · refine holds_later m c ⟨n + 1, h⟩ h0 fun q hq r k => ?_
      have hp := holds c n (Nat.lt_of_succ_lt h) q (by show q.val = n / 32; have : q.val = (n + 1) / 32 := hq; omega) r k
      refine ⟨hp.1, ?_⟩
      have e : (n + 1) % 32 - 1 = n % 32 := by omega
      show _ = upto _ _ _ ((n + 1) % 32 - 1)
      rw [e]
      exact hp.2

/-! ## The output block at a tile's last run -/

/-- At a tile's last run the output block holds the tile's rows of the whole result. -/
theorem out_last (c : Dev nD) (t : Fin cfg0.N) (h1 : t.val % 32 = 31) (q : Fin 16) (hq : q.val = t.val / 32)
    (r : Fin 512) (k : Fin 2048) :
    (outsAt0 m c t.val t.isLt).1 (ix2 r k) = outrow m c (rowIn q r) k := by
  have h0 : ¬t.val % 32 = 0 := by omega
  have hN : cfg0.N = 512 := N_0
  have hpos : 0 < t.val := by omega
  have hprev : t.val - 1 < cfg0.N := Nat.lt_of_le_of_lt (Nat.sub_le _ _) t.isLt
  have e30 : (t.val - 1) % 32 = 30 := by omega
  have ih : ∀ (r : Fin 512) (k : Fin 2048), (outsAt0 m c (t.val - 1) (Nat.lt_of_le_of_lt (Nat.sub_le _ _) t.isLt)).2.2 (ix2 r k) = hrow m c (rowIn q r) k
      ∧ (outsAt0 m c (t.val - 1) (Nat.lt_of_le_of_lt (Nat.sub_le _ _) t.isLt)).2.1 (ix2 r k) = upto (arow m c (rowIn q r)) (w2f m c) k 30 := fun r k => by
    have h := holds m c (t.val - 1) hprev q (by show q.val = (t.val - 1) / 32; omega) r k
    refine ⟨h.1, ?_⟩
    have h2 := h.2
    rwa [show ((⟨t.val - 1, hprev⟩ : Fin cfg0.N).val % 32) = 30 from e30] at h2
  rw [outsAt0_C m c t h0 h1]
  dsimp only
  refine (congrFun (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2) (ix2 r k)).trans ?_
  refine (congrFun (pay3_eq (iblk m c 0 t) (iblk m c 2 t) (iblk m c 1 t) _ (iblk m c 8 t)) (ix2 r k)).trans ?_
  refine (finish_apply (iblk m c 0 t) (iblk m c 2 t) (iblk m c 1 t) _ (iblk m c 8 t) r k).trans ?_
  rw [step_blocks m c t q hq _ _ r k (fun k' => (ih r k').1), (ih r k).2, rowx_blocks m c t q hq r,
    outBiasRow_apply m c t k]
  rw [h1]
  show upto (arow m c (rowIn q r)) (w2f m c) k 30 + run (arow m c (rowIn q r)) (w2f m c) k (30 + 1) + _ + _ = _
  rw [← upto_succ, upto_last]
  rfl

/-- The same at any index of the block. -/
theorem out_last_idx (c : Dev nD) (t : Fin cfg0.N) (h1 : t.val % 32 = 31) (q : Fin 16) (hq : q.val = t.val / 32)
    (y : S512x2048.Idx) : (outsAt0 m c t.val t.isLt).1 y = outrow m c (rowIn q (y 0)) (y 1) := by
  obtain ⟨r, k, rfl⟩ : ∃ (r : Fin 512) (k : Fin 2048), y = ix2 r k := ⟨y 0, y 1, eq_ix2 y⟩
  exact out_last m c t h1 q hq r k

end Cert.KernelIdeal.Accum

end
-- ==== Proof.KernelValue.lean ====
/-
  The kernel program's result, read off its run.

  The output window is written back only at the last run of each row tile, and what it writes there is the tile's 512
  rows of the whole result (`Accum.out_last`). The 16 tiles cover the 8192 rows, so after the region the output array
  holds the whole result row by row (`regionOut`); the one host operation after the region regroups the 8192 rows as
  4 × 2048.
-/
import proofs.«128220_j37125697307027_2_alg».proof.Proof.Accum
import Idealize.ShloMosaic.Lib.StableHlo.Run

set_option maxRecDepth 16384

noncomputable section

namespace Cert.KernelIdeal.Value

open Idealize.ShloMosaic Idealize.ShloMosaic.TcCoe Idealize.ShloMosaic.ValueIdx Idealize.SL.Sem
open Idealize.ShloMosaic.Pipeline (Dat)
open Cert.KernelIdeal Cert.KernelIdeal.Gen Cert.MlpSpec Cert.KernelIdeal.Blocks Cert.KernelIdeal.Accum

variable (m : (ℓ : Loc nD τ sig) → Buf (Elt Ideal) ℓ) (ρ : Dev nD → PrngReg)

/-- The region's output array: row `ρ`, lane `k` of the whole result. -/
def regionOut (c : Dev nD) : Buf (Elt Ideal) ((c : Thread nD τ).loc main_v9) := fun i => outrow m c (i 0) (i 1)

/-- What a flushing point writes back is its block of `regionOut`. -/
theorem flushed_eq (c : Dev nD) (t : Fin cfg0.N) (hf : (cfg0.win 9).flush t = true) :
    (dats m 0 c).flushed 9 t = ((cfg0.win 9).blk t).view.read (Elt Ideal) (regionOut m c) := by
  have h1 : t.val % 32 = 31 := (flush0_9 t).mp hf
  have hN : cfg0.N = 512 := N_0
  have ht := t.isLt
  have hi := idx_facts t
  show (cfg0.win 9).cut (grid0.coords t) ((dats m 0 c).after 9 t) = _
  rw [after0_9]
  funext j
  show (outsAt0 m c t.val t.isLt).1 j = regionOut m c (((cfg0.win 9).blk t).view.emb j)
  rw [out_last_idx m c t h1 ⟨t.val / 32, by omega⟩ rfl j]
  show outrow m c _ _ = outrow m c ((((cfg0.win 9).blk t).view.emb j) 0) ((((cfg0.win 9).blk t).view.emb j) 1)
  have ha : rowIn ⟨t.val / 32, by omega⟩ (j 0) = (((cfg0.win 9).blk t).view.emb j) 0 := Fin.ext (by
    show 512 * (t.val / 32) + (j 0).val = win0_9.index t (0 : Fin 2) * 512 + 1 * (j 0).val
    rw [hi.2.2.2.2.2.2.2.2.2.2.2.2.2.2.2.2.2.2.1]; omega)
  have hb : j 1 = (((cfg0.win 9).blk t).view.emb j) 1 := Fin.ext (by
    show (j 1).val = win0_9.index t (1 : Fin 2) * 2048 + 1 * (j 1).val
    rw [hi.2.2.2.2.2.2.2.2.2.2.2.2.2.2.2.2.2.2.2]; omega)
  rw [ha, hb]

/-- An index of the output array is in point `t`'s block iff each coordinate is in the block's range. -/
theorem mem_blk (t : Fin cfg0.N) (i : S8192x2048.Idx) :
    i ∈ ((cfg0.win 9).blk t).view.set ↔ ∀ a : Fin 2, win0_9.index t a * S512x2048.size a ≤ (i a).val
      ∧ (i a).val < win0_9.index t a * S512x2048.size a + S512x2048.size a := by
  show i ∈ ((View.whole main_v9).slice (win0_9.rect t)).set ↔ _
  rw [View.set_slice_whole, Rect.mem_set_unit]
  exact Iff.rfl

/-- Every row is in the block written back at the last run of its tile. -/
theorem cover (i : S8192x2048.Idx) :
    ∃ t : Fin cfg0.N, (cfg0.win 9).flush t = true ∧ i ∈ ((cfg0.win 9).blk t).view.set := by
  have hi0 : (i 0).val < 8192 := (i 0).isLt
  have hi1 : (i 1).val < 2048 := (i 1).isLt
  have hN : cfg0.N = 512 := N_0
  have ht : 32 * ((i 0).val / 512) + 31 < cfg0.N := by rw [hN]; omega
  have hi := idx_facts ⟨32 * ((i 0).val / 512) + 31, ht⟩
  refine ⟨⟨32 * ((i 0).val / 512) + 31, ht⟩, (flush0_9 _).mpr (by show (32 * ((i 0).val / 512) + 31) % 32 = 31; omega), ?_⟩
  rw [mem_blk]
  intro a
  match a with
  | ⟨0, _⟩ =>
    show win0_9.index ⟨32 * ((i 0).val / 512) + 31, ht⟩ (0 : Fin 2) * 512 ≤ (i 0).val
      ∧ (i 0).val < win0_9.index ⟨32 * ((i 0).val / 512) + 31, ht⟩ (0 : Fin 2) * 512 + 512
    rw [hi.2.2.2.2.2.2.2.2.2.2.2.2.2.2.2.2.2.2.1]
    show (32 * ((i 0).val / 512) + 31) / 32 * 512 ≤ (i 0).val ∧ (i 0).val < (32 * ((i 0).val / 512) + 31) / 32 * 512 + 512
    omega
  | ⟨1, _⟩ =>
    show win0_9.index ⟨32 * ((i 0).val / 512) + 31, ht⟩ (1 : Fin 2) * 2048 ≤ (i 1).val
      ∧ (i 1).val < win0_9.index ⟨32 * ((i 0).val / 512) + 31, ht⟩ (1 : Fin 2) * 2048 + 2048
    rw [hi.2.2.2.2.2.2.2.2.2.2.2.2.2.2.2.2.2.2.2]
    omega

/-- After the region the output array holds the whole result, row by row. -/
theorem final (c : Dev nD) : (dats m 0 c).arrAt 9 cfg0.N = regionOut m c :=
  (dats m 0 c).arrAt_eq_of_cover 9 (regionOut m c) (flushed_eq m c) cover

/-- The host operation after the region regroups the rows. -/
theorem tail_eq (c : Dev nD) :
    Pipeline.afterTail₀ cfgs (dats m) 0 (V0 m) [hostOps1] c main_v10
      = shapeCast S4x2048x2048 (regionOut m c) shapeCasts_S8192x2048_S4x2048x2048 := by
  unfold Pipeline.afterTail₀
  show StableHlo.after hostOps1 _ (Proc.devRef .tc main_v10) = _
  after_results
  have e : Pipeline.withArrays (cfgs 0).spec c (V0 m c) (fun w => (dats m 0 c).arrAt w (cfgs 0).N)
      (Proc.devRef .tc main_v9) = regionOut m c :=
    (Pipeline.withArrays_arr spec0 launch0.win.arr_inj c _ _ 9).trans (final m c)
  rw [e]
  rfl

/-- The run, read: the program's result is the regrouped output array, and the arguments end unchanged. -/
theorem run : θ_run defs (onTc (τ := τ) (main (F := Ideal))) ⟨m, fun _ => 0, ρ⟩ fun r => ∀ c : Dev nD,
      r.2.mem ((c.tc : Thread nD τ).loc main_v10)
        = shapeCast S4x2048x2048 (regionOut m c) shapeCasts_S8192x2048_S4x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Value

end
-- ==== Proof.HostEnds.lean ====
/-
  The arrays the region works on, in terms of the program's arguments.

  Before the region the program regroups the two activation arrays' 4 × 2048 rows as 8192 rows, gives each parameter
  row a leading unit axis, and narrows the two matrices' format, which on the extended reals changes nothing. So row
  `2048 b + s` of the region's activation arrays is row `(b, s)` of the arguments, and every parameter is read where
  the arguments hold it.
-/
import proofs.«128220_j37125697307027_2_alg».proof.Proof.Blocks
import Idealize.ShloMosaic.Lib.StableHlo.Run
import Idealize.ShloMosaic.Lib.ValueLayout

set_option maxRecDepth 16384

noncomputable section

namespace Cert.KernelIdeal.HostEnds

open Idealize.ShloMosaic Idealize.ShloMosaic.TcCoe Idealize.ShloMosaic.ValueIdx Idealize.SL.Sem
open Cert.KernelIdeal Cert.KernelIdeal.Gen Cert.KernelIdeal.Blocks

variable (m : (ℓ : Loc nD τ sig) → Buf (Elt Ideal) ℓ)

/-! ## What the host operations before the region wrote -/

theorem arrX_eq (c : Dev nD) :
    arrX m c = shapeCast S8192x2048 (m ((c : Thread nD τ).loc main_arg0)) shapeCasts_S4x2048x2048_S8192x2048 := by
  unfold arrX
  show StableHlo.after hostOps0 (fun b => m (c, b)) (Proc.devRef .tc main_v0) = _
  after_results <;> rfl

theorem arrRes_eq (c : Dev nD) :
    arrRes m c = shapeCast S8192x2048 (m ((c : Thread nD τ).loc main_arg1)) shapeCasts_S4x2048x2048_S8192x2048 := by
  unfold arrRes
  show StableHlo.after hostOps0 (fun b => m (c, b)) (Proc.devRef .tc main_v1) = _
  after_results <;> rfl

theorem arrBias_eq (c : Dev nD) :
    arrBias m c = shapeCast S1x2048 (m ((c : Thread nD τ).loc main_arg3)) shapeCasts_S2048_S1x2048 := by
  unfold arrBias
  show StableHlo.after hostOps0 (fun b => m (c, b)) (Proc.devRef .tc main_v2) = _
  after_results <;> rfl

theorem arrGain_eq (c : Dev nD) :
    arrGain m c = shapeCast S1x2048 (m ((c : Thread nD τ).loc main_arg5)) shapeCasts_S2048_S1x2048 := by
  unfold arrGain
  show StableHlo.after hostOps0 (fun b => m (c, b)) (Proc.devRef .tc main_v3) = _
  after_results <;> rfl

theorem arrOffset_eq (c : Dev nD) :
    arrOffset m c = shapeCast S1x2048 (m ((c : Thread nD τ).loc main_arg6)) shapeCasts_S2048_S1x2048 := by
  unfold arrOffset
  show StableHlo.after hostOps0 (fun b => m (c, b)) (Proc.devRef .tc main_v4) = _
  after_results <;> rfl

theorem arrB1_eq (c : Dev nD) :
    arrB1 m c = shapeCast S1x8192 (m ((c : Thread nD τ).loc main_arg8)) shapeCasts_S8192_S1x8192 := by
  unfold arrB1
  show StableHlo.after hostOps0 (fun b => m (c, b)) (Proc.devRef .tc main_v5) = _
  after_results <;> rfl

theorem arrB2_eq (c : Dev nD) :
    arrB2 m c = shapeCast S1x2048 (m ((c : Thread nD τ).loc main_arg10)) shapeCasts_S2048_S1x2048 := by
  unfold arrB2
  show StableHlo.after hostOps0 (fun b => m (c, b)) (Proc.devRef .tc main_v6) = _
  after_results <;> rfl

theorem arrW1_eq (c : Dev nD) :
    arrW1 m c = truncf .bf16 (m ((c : Thread nD τ).loc main_arg7)) bitsLt_bf16_f32 := by
  unfold arrW1
  show StableHlo.after hostOps0 (fun b => m (c, b)) (Proc.devRef .tc main_v7) = _
  after_results <;> rfl

theorem arrW2_eq (c : Dev nD) :
    arrW2 m c = truncf .bf16 (m ((c : Thread nD τ).loc main_arg9)) bitsLt_bf16_f32 := by
  unfold arrW2
  show StableHlo.after hostOps0 (fun b => m (c, b)) (Proc.devRef .tc main_v8) = _
  after_results <;> rfl

/-! ## The same, element by element -/

/-- Row `2048 b + s` of the region's input array is row `(b, s)` of the input. -/
theorem x_apply (c : Dev nD) (b : Fin 4) (s : Fin 2048) (k : Fin 2048) (ρ : Fin 8192) (hρ : ρ.val = 2048 * b.val + s.val) :
    arrX m c (ix2 ρ k) = m ((c : Thread nD τ).loc main_arg0) (ix3 b s k) := by
  rw [arrX_eq]
  exact shapeCast_apply _ _ (ix2 ρ k) (ix3 b s k) (by
    rw [Shape.rowMajor_val_two, Shape.rowMajor_val_three]
    show (b.val * 2048 + s.val) * 2048 + k.val = ρ.val * 2048 + k.val
    rw [hρ]; omega)

/-- Row `2048 b + s` of the region's residual array is row `(b, s)` of the residual. -/
theorem res_apply (c : Dev nD) (b : Fin 4) (s : Fin 2048) (k : Fin 2048) (ρ : Fin 8192) (hρ : ρ.val = 2048 * b.val + s.val) :
    arrRes m c (ix2 ρ k) = m ((c : Thread nD τ).loc main_arg1) (ix3 b s k) := by
  rw [arrRes_eq]
  exact shapeCast_apply _ _ (ix2 ρ k) (ix3 b s k) (by
    rw [Shape.rowMajor_val_two, Shape.rowMajor_val_three]
    show (b.val * 2048 + s.val) * 2048 + k.val = ρ.val * 2048 + k.val
    rw [hρ]; omega)

/-- The bias row. -/
theorem bias_apply (c : Dev nD) (k : Fin 2048) :
    arrBias m c (ix2 (0 : Fin 1) k) = m ((c : Thread nD τ).loc main_arg3) (ix1 k) := by
  rw [arrBias_eq]
  exact shapeCast_apply _ _ (ix2 (0 : Fin 1) k) (ix1 k) (by
    rw [Shape.rowMajor_val_two, Shape.rowMajor_val_one]
    show k.val = 0 * 2048 + k.val
    omega)

/-- The gain row. -/
theorem gain_apply (c : Dev nD) (k : Fin 2048) :
    arrGain m c (ix2 (0 : Fin 1) k) = m ((c : Thread nD τ).loc main_arg5) (ix1 k) := by
  rw [arrGain_eq]
  exact shapeCast_apply _ _ (ix2 (0 : Fin 1) k) (ix1 k) (by
    rw [Shape.rowMajor_val_two, Shape.rowMajor_val_one]
    show k.val = 0 * 2048 + k.val
    omega)

/-- The offset row. -/
theorem offset_apply (c : Dev nD) (k : Fin 2048) :
    arrOffset m c (ix2 (0 : Fin 1) k) = m ((c : Thread nD τ).loc main_arg6) (ix1 k) := by
  rw [arrOffset_eq]
  exact shapeCast_apply _ _ (ix2 (0 : Fin 1) k) (ix1 k) (by
    rw [Shape.rowMajor_val_two, Shape.rowMajor_val_one]
    show k.val = 0 * 2048 + k.val
    omega)

/-- The output bias row. -/
theorem outBias_apply (c : Dev nD) (k : Fin 2048) :
    arrB2 m c (ix2 (0 : Fin 1) k) = m ((c : Thread nD τ).loc main_arg10) (ix1 k) := by
  rw [arrB2_eq]
  exact shapeCast_apply _ _ (ix2 (0 : Fin 1) k) (ix1 k) (by
    rw [Shape.rowMajor_val_two, Shape.rowMajor_val_one]
    show k.val = 0 * 2048 + k.val
    omega)

/-- The first bias row. -/
theorem b1_apply (c : Dev nD) (j : Fin 8192) :
    arrB1 m c (ix2 (0 : Fin 1) j) = m ((c : Thread nD τ).loc main_arg8) (ix1 j) := by
  rw [arrB1_eq]
  exact shapeCast_apply _ _ (ix2 (0 : Fin 1) j) (ix1 j) (by
    rw [Shape.rowMajor_val_two, Shape.rowMajor_val_one]
    show j.val = 0 * 8192 + j.val
    omega)

/-- The first matrix: the narrowing of its format is the identity on extended reals. -/
theorem w1_apply (c : Dev nD) (k : Fin 2048) (j : Fin 8192) :
    arrW1 m c (ix2 k j) = m ((c : Thread nD τ).loc main_arg7) (ix2 k j) := by
  rw [arrW1_eq]; rfl

/-- The second matrix likewise. -/
theorem w2_apply (c : Dev nD) (j : Fin 8192) (k : Fin 2048) :
    arrW2 m c (ix2 j k) = m ((c : Thread nD τ).loc main_arg9) (ix2 j k) := by
  rw [arrW2_eq]; rfl

end Cert.KernelIdeal.HostEnds

end
-- ==== Proof.WholeResult.lean ====
/-
  The whole result, array by array: position `(b, s)` of the 4 × 2048 grid of rows is one row of 2048 lanes,
  and the result there is `MlpSpec.result` of that row of `input + bias + residual`.
-/
import proofs.«128220_j37125697307027_2_alg».proof.Proof.MlpSpec
import Idealize.ShloMosaic.Lib.ValueIdx

noncomputable section

namespace Cert.MlpSpec

open Idealize.ShloMosaic Idealize.ShloMosaic.ValueIdx

/-- Row `(b, s)` of input plus bias plus residual. -/
def rowAt (A0 A1 : (⟨3, ![4, 2048, 2048]⟩ : Shape).Idx → EReal) (A3 : (⟨1, ![2048]⟩ : Shape).Idx → EReal)
    (b : Fin 4) (s : Fin 2048) : Fin 2048 → EReal :=
  fun k => (A0 (ix3 b s k) + A3 (ix1 k)) + A1 (ix3 b s k)

/-- Row `(b, s)` of the result, from the nine arrays that enter it. -/
def mlpAt (A0 A1 : (⟨3, ![4, 2048, 2048]⟩ : Shape).Idx → EReal) (A3 A5 A6 : (⟨1, ![2048]⟩ : Shape).Idx → EReal)
    (A7 : (⟨2, ![2048, 8192]⟩ : Shape).Idx → EReal) (A8 : (⟨1, ![8192]⟩ : Shape).Idx → EReal)
    (A9 : (⟨2, ![8192, 2048]⟩ : Shape).Idx → EReal) (A10 : (⟨1, ![2048]⟩ : Shape).Idx → EReal)
    (b : Fin 4) (s : Fin 2048) : Fin 2048 → EReal :=
  result (rowAt A0 A1 A3 b s)
    (hiddenRow (normed (rowAt A0 A1 A3 b s) (fun k => A5 (ix1 k)) (fun k => A6 (ix1 k)))
      (fun k j => A7 (ix2 k j)) (fun j => A8 (ix1 j)))
    (fun j k => A9 (ix2 j k)) (fun k => A10 (ix1 k))

/-- The whole result array. -/
def mlp (A0 A1 : (⟨3, ![4, 2048, 2048]⟩ : Shape).Idx → EReal) (A3 A5 A6 : (⟨1, ![2048]⟩ : Shape).Idx → EReal)
    (A7 : (⟨2, ![2048, 8192]⟩ : Shape).Idx → EReal) (A8 : (⟨1, ![8192]⟩ : Shape).Idx → EReal)
    (A9 : (⟨2, ![8192, 2048]⟩ : Shape).Idx → EReal) (A10 : (⟨1, ![2048]⟩ : Shape).Idx → EReal) :
    (⟨3, ![4, 2048, 2048]⟩ : Shape).Idx → EReal :=
  fun i => mlpAt A0 A1 A3 A5 A6 A7 A8 A9 A10 (i 0) (i 1) (i 2)

end Cert.MlpSpec

end
-- ==== Proof.KernelResult.lean ====
/-
  The kernel program's result is the whole-result function of its arguments.

  Row `2048 b + s` of the region's output array is `MlpSpec.result` of that row of the region's arrays; read back
  through the host operations before the region these are row `(b, s)` and the parameters of the arguments; and the
  host operation after the region puts row `2048 b + s` at `(b, s)`.
-/
import proofs.«128220_j37125697307027_2_alg».proof.Proof.KernelValue
import proofs.«128220_j37125697307027_2_alg».proof.Proof.HostEnds
import proofs.«128220_j37125697307027_2_alg».proof.Proof.WholeResult

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.MlpSpec Cert.KernelIdeal.Blocks Cert.KernelIdeal.Accum
open Cert.KernelIdeal.HostEnds

variable (m : (ℓ : Loc nD τ sig) → Buf (Elt Ideal) ℓ)

/-- Row `2048 b + s` of the region's result, in terms of the arguments. -/
theorem outrow_eq (c : Dev nD) (b : Fin 4) (s : Fin 2048) (ρ : Fin 8192) (hρ : ρ.val = 2048 * b.val + s.val) :
    outrow m c ρ = mlpAt (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b s := by
  have hx : xrow m c ρ = rowAt (m ((c : Thread nD τ).loc main_arg0)) (m ((c : Thread nD τ).loc main_arg1)) (m ((c : Thread nD τ).loc main_arg3)) b s := funext fun k => by
    dsimp only [xrow, rowAt]
    rw [x_apply m c b s k ρ hρ, bias_apply m c k, res_apply m c b s k ρ hρ]
  have hg : (fun k => arrGain m c (ix2 (0 : Fin 1) k)) = fun k => (m ((c : Thread nD τ).loc main_arg5)) (ix1 k) := funext fun k => gain_apply m c k
  have ho : (fun k => arrOffset m c (ix2 (0 : Fin 1) k)) = fun k => (m ((c : Thread nD τ).loc main_arg6)) (ix1 k) := funext fun k => offset_apply m c k
  have hw1 : (fun k j => arrW1 m c (ix2 k j)) = fun k j => (m ((c : Thread nD τ).loc main_arg7)) (ix2 k j) :=
    funext fun k => funext fun j => w1_apply m c k j
  have hb1 : (fun j => arrB1 m c (ix2 (0 : Fin 1) j)) = fun j => (m ((c : Thread nD τ).loc main_arg8)) (ix1 j) := funext fun j => b1_apply m c j
  have hw2 : w2f m c = fun j k => (m ((c : Thread nD τ).loc main_arg9)) (ix2 j k) := funext fun j => funext fun k => w2_apply m c j k
  have hb2 : (fun k => arrB2 m c (ix2 (0 : Fin 1) k)) = fun k => (m ((c : Thread nD τ).loc main_arg10)) (ix1 k) := funext fun k => outBias_apply m c k
  unfold outrow arow hrow mlpAt
  rw [hx, hg, ho, hw1, hb1, hw2, hb2]

/-- The program's result array is the whole-result function of the arguments. -/
theorem kernel_result (c : Dev nD) :
    shapeCast S4x2048x2048 (regionOut m c) shapeCasts_S8192x2048_S4x2048x2048 = mlp (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨b, s, k, rfl⟩ : ∃ (b : Fin 4) (s : Fin 2048) (k : Fin 2048), i = ix3 b s k := ⟨i 0, i 1, i 2, eq_ix3 i⟩
  have hlt : 2048 * b.val + s.val < 8192 := by have := b.isLt; have := s.isLt; omega
  refine (shapeCast_apply (regionOut m c) shapeCasts_S8192x2048_S4x2048x2048 (ix3 b s k)
    (ix2 (⟨2048 * b.val + s.val, hlt⟩ : Fin 8192) k) (by
      show (S8192x2048.rowMajor (ix2 (⟨2048 * b.val + s.val, hlt⟩ : Fin 8192) k)).val = (S4x2048x2048.rowMajor (ix3 b s k)).val
      rw [Shape.rowMajor_val_two, Shape.rowMajor_val_three]
      show (2048 * b.val + s.val) * 2048 + k.val = (b.val * 2048 + s.val) * 2048 + k.val
      omega)).trans ?_
  show outrow m c ⟨2048 * b.val + s.val, hlt⟩ k = mlpAt _ _ _ _ _ _ _ _ _ b s k
  rw [outrow_eq m c b s ⟨2048 * b.val + s.val, hlt⟩ rfl]

end Cert.KernelIdeal.Value

end
-- ==== Proof.RefValue.lean ====
/-
  The reference program, read at one element: it is the whole-result function of its arguments.

  The reference's operations are read one at a time. Its sum array at `(b, s, k)` is lane `k` of row `(b, s)`;
  its two reductions over the last axis are the mean and the variance of that row; the normalised array is
  `normed` of the row; the first contraction with bias and clamp is `hiddenRow`; the second contraction with bias
  and the sum array added is `result`. The only facts about extended reals used are that the host's sums start from
  a zero and that its operations are the kernel's: no finiteness.
-/
import proofs.«128220_j37125697307027_2_alg».proof.Proof.Gen.ReferenceIdeal.Read
import proofs.«128220_j37125697307027_2_alg».proof.Proof.WholeResult

noncomputable section

namespace Cert.ReferenceIdeal.RefValue

open Idealize.ShloMosaic Idealize.ShloMosaic.ValueIdx Cert.ReferenceIdeal Cert.ReferenceIdeal.Read Cert.MlpSpec

/-- The sum array at `(b, s, k)`. -/
theorem sum_apply (x0 x1 : (⟨S4x2048x2048, .f32⟩ : BufTy).Contents (Elt Ideal)) (x3 : (⟨S2048, .f32⟩ : BufTy).Contents (Elt Ideal)) (b : Fin 4) (s : Fin 2048) (k : Fin 2048) :
    val_main_v3 (F := Ideal) x0 x1 x3 (ix3 b s k) = rowAt x0 x1 x3 b s k := by
  have e : idx_main_v0 (idx_main_v1 (ix3 b s k)) = ix1 k := funext fun a => Fin.ext (by
    match a with
    | ⟨0, _⟩ => rfl)
  rw [val_main_v3_apply, val_main_v2_apply, val_main_v1_apply, val_main_v0_apply, e]
  rfl

/-- The row means, kept with a unit last axis. -/
theorem mean_apply (x0 x1 : (⟨S4x2048x2048, .f32⟩ : BufTy).Contents (Elt Ideal)) (x3 : (⟨S2048, .f32⟩ : BufTy).Contents (Elt Ideal)) (b : Fin 4) (s : Fin 2048) (z : Fin 1) :
    val_main_v7 (F := Ideal) x0 x1 x3 (ix3 b s z) = mean (rowAt x0 x1 x3 b s) := by
  have e : ∀ k, idx_main_v4 (idx_main_v5 (ix3 b s z)) k = ix3 b s k := fun k => funext fun a => Fin.ext (by
    match a with
    | ⟨0, _⟩ => rfl
    | ⟨1, _⟩ => rfl
    | ⟨2, _⟩ => rfl)
  rw [val_main_v7_apply, val_main_v5_apply, val_main_v4_apply, val_main_v6_apply, val_main_cst_0_apply, val_main_cst_apply]
  simp only [e, sum_apply]
  unfold mean
  simp only [Ideal.hostDivf_def, Ideal.ofBits_def, Ideal.ofBits_zero_f32, zero_add]

/-- The sum array with its row mean taken off (the reference computes it twice: both copies). -/
theorem centred_apply (x0 x1 : (⟨S4x2048x2048, .f32⟩ : BufTy).Contents (Elt Ideal)) (x3 : (⟨S2048, .f32⟩ : BufTy).Contents (Elt Ideal)) (b : Fin 4) (s : Fin 2048) (k : Fin 2048) :
    val_main_v9 (F := Ideal) x0 x1 x3 (ix3 b s k) = rowAt x0 x1 x3 b s k - mean (rowAt x0 x1 x3 b s) := by
  have e : idx_main_v8 (ix3 b s k) = ix3 b s (0 : Fin 1) := funext fun a => Fin.ext (by
    match a with
    | ⟨0, _⟩ => rfl
    | ⟨1, _⟩ => rfl
    | ⟨2, _⟩ => rfl)
  rw [val_main_v9_apply, val_main_v8_apply, sum_apply, e, mean_apply]
  rfl

theorem centred_apply' (x0 x1 : (⟨S4x2048x2048, .f32⟩ : BufTy).Contents (Elt Ideal)) (x3 : (⟨S2048, .f32⟩ : BufTy).Contents (Elt Ideal)) (b : Fin 4) (s : Fin 2048) (k : Fin 2048) :
    val_main_v16 (F := Ideal) x0 x1 x3 (ix3 b s k) = rowAt x0 x1 x3 b s k - mean (rowAt x0 x1 x3 b s) := by
  have e : idx_main_v15 (ix3 b s k) = ix3 b s (0 : Fin 1) := funext fun a => Fin.ext (by
    match a with
    | ⟨0, _⟩ => rfl
    | ⟨1, _⟩ => rfl
    | ⟨2, _⟩ => rfl)
  rw [val_main_v16_apply, val_main_v15_apply, sum_apply, e, mean_apply]
  rfl

/-- The variance plus the literal, under the reciprocal square root. -/
theorem spread_apply (x0 x1 : (⟨S4x2048x2048, .f32⟩ : BufTy).Contents (Elt Ideal)) (x3 : (⟨S2048, .f32⟩ : BufTy).Contents (Elt Ideal)) (b : Fin 4) (s : Fin 2048) (z : Fin 1) :
    val_main_v18 (F := Ideal) x0 x1 x3 (ix3 b s z) = spread (rowAt x0 x1 x3 b s) := by
  have e : ∀ k, idx_main_v11 (idx_main_v12 (ix3 b s z)) k = ix3 b s k := fun k => funext fun a => Fin.ext (by
    match a with
    | ⟨0, _⟩ => rfl
    | ⟨1, _⟩ => rfl
    | ⟨2, _⟩ => rfl)
  rw [val_main_v18_apply, val_main_v14_apply, val_main_v12_apply, val_main_v11_apply, val_main_v13_apply,
    val_main_cst_2_apply, val_main_cst_1_apply, val_main_v17_apply, val_main_cst_3_apply]
  simp only [e, val_main_v10_apply, centred_apply]
  unfold spread mean
  simp only [Ideal.hostDivf_def, Ideal.ofBits_def, Ideal.ofBits_zero_f32, zero_add, Ideal.addf_def, Ideal.mulf_def]

/-- The normalised array. -/
theorem normed_apply (x0 x1 : (⟨S4x2048x2048, .f32⟩ : BufTy).Contents (Elt Ideal)) (x3 x5 x6 : (⟨S2048, .f32⟩ : BufTy).Contents (Elt Ideal)) (b : Fin 4) (s : Fin 2048) (k : Fin 2048) :
    val_main_v27 (F := Ideal) x0 x1 x3 x5 x6 (ix3 b s k)
      = normed (rowAt x0 x1 x3 b s) (fun k' => x5 (ix1 k')) (fun k' => x6 (ix1 k')) k := by
  have e20 : idx_main_v20 (ix3 b s k) = ix3 b s (0 : Fin 1) := funext fun a => Fin.ext (by
    match a with
    | ⟨0, _⟩ => rfl
    | ⟨1, _⟩ => rfl
    | ⟨2, _⟩ => rfl)
  have e22 : idx_main_v22 (idx_main_v23 (ix3 b s k)) = ix1 k := funext fun a => Fin.ext (by
    match a with
    | ⟨0, _⟩ => rfl)
  have e25 : idx_main_v25 (idx_main_v26 (ix3 b s k)) = ix1 k := funext fun a => Fin.ext (by
    match a with
    | ⟨0, _⟩ => rfl)
  rw [val_main_v27_apply, val_main_v24_apply, val_main_v21_apply, centred_apply', val_main_v20_apply, e20,
    val_main_v19_apply, spread_apply, val_main_v23_apply, val_main_v22_apply, e22, val_main_v26_apply,
    val_main_v25_apply, e25]
  rfl

/-- The hidden activations. -/
theorem hidden_apply (x0 x1 : (⟨S4x2048x2048, .f32⟩ : BufTy).Contents (Elt Ideal)) (x3 x5 x6 : (⟨S2048, .f32⟩ : BufTy).Contents (Elt Ideal)) (x7 : (⟨S2048x8192, .f32⟩ : BufTy).Contents (Elt Ideal)) (x8 : (⟨S8192, .f32⟩ : BufTy).Contents (Elt Ideal)) (b : Fin 4) (s : Fin 2048) (j : Fin 8192) :
    val_main_v32 (F := Ideal) x0 x1 x3 x5 x6 x7 x8 (ix3 b s j)
      = hiddenRow (normed (rowAt x0 x1 x3 b s) (fun k' => x5 (ix1 k')) (fun k' => x6 (ix1 k')))
          (fun k' j' => x7 (ix2 k' j')) (fun j' => x8 (ix1 j')) j := by
  have el : ∀ k, lidx_main_v28 (ix3 b s j) k = ix3 b s k := fun k => funext fun a => Fin.ext (by
    match a with
    | ⟨0, _⟩ => rfl
    | ⟨1, _⟩ => rfl
    | ⟨2, _⟩ => rfl)
  have er : ∀ k, ridx_main_v28 (ix3 b s j) k = ix2 k j := fun k => funext fun a => Fin.ext (by
    match a with
    | ⟨0, _⟩ => rfl
    | ⟨1, _⟩ => rfl)
  have e29 : idx_main_v29 (idx_main_v30 (ix3 b s j)) = ix1 j := funext fun a => Fin.ext (by
    match a with
    | ⟨0, _⟩ => rfl)
  rw [val_main_v32_apply, val_main_v31_apply, val_main_v28_apply, val_main_v30_apply, val_main_v29_apply, e29,
    val_main_call0_v0_apply, val_main_call0_cst_apply]
  simp only [el, er, normed_apply]
  rfl

/-- The reference's result at `(b, s, k)`. -/
theorem result_apply (x0 x1 : (⟨S4x2048x2048, .f32⟩ : BufTy).Contents (Elt Ideal)) (x3 x5 x6 : (⟨S2048, .f32⟩ : BufTy).Contents (Elt Ideal)) (x7 : (⟨S2048x8192, .f32⟩ : BufTy).Contents (Elt Ideal)) (x8 : (⟨S8192, .f32⟩ : BufTy).Contents (Elt Ideal)) (x9 : (⟨S8192x2048, .f32⟩ : BufTy).Contents (Elt Ideal)) (x10 : (⟨S2048, .f32⟩ : BufTy).Contents (Elt Ideal)) (b : Fin 4) (s : Fin 2048) (k : Fin 2048) :
    val_main_v37 (F := Ideal) x0 x1 x3 x5 x6 x7 x8 x9 x10 (ix3 b s k) = mlpAt x0 x1 x3 x5 x6 x7 x8 x9 x10 b s k := by
  have el : ∀ j, lidx_main_v33 (ix3 b s k) j = ix3 b s j := fun j => funext fun a => Fin.ext (by
    match a with
    | ⟨0, _⟩ => rfl
    | ⟨1, _⟩ => rfl
    | ⟨2, _⟩ => rfl)
  have er : ∀ j, ridx_main_v33 (ix3 b s k) j = ix2 j k := fun j => funext fun a => Fin.ext (by
    match a with
    | ⟨0, _⟩ => rfl
    | ⟨1, _⟩ => rfl)
  have e34 : idx_main_v34 (idx_main_v35 (ix3 b s k)) = ix1 k := funext fun a => Fin.ext (by
    match a with
    | ⟨0, _⟩ => rfl)
  rw [val_main_v37_apply, val_main_v36_apply, val_main_v33_apply, val_main_v35_apply, val_main_v34_apply, e34, sum_apply]
  simp only [el, er, hidden_apply]
  rfl

/-- So the reference's result array is the whole-result function of its arguments. -/
theorem result_eq (x0 x1 : (⟨S4x2048x2048, .f32⟩ : BufTy).Contents (Elt Ideal)) (x3 x5 x6 : (⟨S2048, .f32⟩ : BufTy).Contents (Elt Ideal)) (x7 : (⟨S2048x8192, .f32⟩ : BufTy).Contents (Elt Ideal)) (x8 : (⟨S8192, .f32⟩ : BufTy).Contents (Elt Ideal)) (x9 : (⟨S8192x2048, .f32⟩ : BufTy).Contents (Elt Ideal)) (x10 : (⟨S2048, .f32⟩ : BufTy).Contents (Elt Ideal)) :
    val_main_v37 (F := Ideal) x0 x1 x3 x5 x6 x7 x8 x9 x10 = mlp x0 x1 x3 x5 x6 x7 x8 x9 x10 := by
  funext i
  obtain ⟨b, s, k, rfl⟩ : ∃ (b : Fin 4) (s : Fin 2048) (k : Fin 2048), i = ix3 b s k := ⟨i 0, i 1, i 2, eq_ix3 i⟩
  exact result_apply x0 x1 x3 x5 x6 x7 x8 x9 x10 b s k

end Cert.ReferenceIdeal.RefValue

end
-- ==== Proof.lean ====
/-
  A fused layer-norm and two-layer perceptron with a residual, against its plain reference, on the extended reals.

  Both programs compute, for each of the 4 × 2048 rows `x = input + bias + residual`:
    `h = (x − mean x) · rsqrt(var x + ε) · gain + offset`,  `a = max(h·W₁ + b₁, 0)`,  `out = (a·W₂ + b₂) + x`.
  The reference does it with whole-array operations. The kernel works on tiles of 512 rows; for each tile it normalises
  once, then walks the 8192 hidden lanes in 32 runs of 256, adding each run's share of `a·W₂` into an accumulator that
  starts at zero, and adds bias and `x` after the last run. The two agree because a sum of extended reals over 8192
  lanes is the sum of its 32 consecutive runs added in order, starting from zero (`MlpSpec.upto_last`): addition there
  is commutative and associative, so the inputs' finiteness is never used. Format changes are the identity and both
  sides use the same literals, so nothing else separates them.

  The frames of the two kernel programs are the generated ones; the reference's frame is its generated run with the
  result dropped; the idealization rewrote nothing.
-/
import proofs.«128220_j37125697307027_2_alg».proof.Defs
import proofs.«128220_j37125697307027_2_alg».proof.Proof.Gen.Kernel
import proofs.«128220_j37125697307027_2_alg».proof.Proof.Gen.Kernel.Frame
import proofs.«128220_j37125697307027_2_alg».proof.Proof.Gen.KernelIdeal
import proofs.«128220_j37125697307027_2_alg».proof.Proof.Gen.KernelIdeal.Frame
import proofs.«128220_j37125697307027_2_alg».proof.Proof.Gen.ReferenceIdeal
import proofs.«128220_j37125697307027_2_alg».proof.Proof.Gen.Pre_finite_inputs
import proofs.«128220_j37125697307027_2_alg».proof.Proof.Gen.ReferenceIdeal.Run
import proofs.«128220_j37125697307027_2_alg».proof.Proof.Gen.ReferenceIdeal.Read
import proofs.«128220_j37125697307027_2_alg».proof.Proof.KernelResult
import proofs.«128220_j37125697307027_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the whole-result function of those arguments. -/
theorem algebraic : Cert.algebraic_KernelIdeal_ReferenceIdeal := by
  intro m ρ m' ρ' _ hagree
  refine ⟨fun c => Cert.MlpSpec.mlp
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Value.kernel_result m c), (h c).2⟩)
      (Cert.KernelIdeal.Value.run m ρ)
  · refine (θ_run Cert.ReferenceIdeal.defs _ _).mono (fun _ h c => ⟨?_, (h c).2⟩)
      (Cert.ReferenceIdeal.Value.run (F := Ideal) m' ρ')
    obtain ⟨h0, h1, -, h3, -, h5, h6, h7, h8, h9, h10⟩ := hagree c
    rw [(h c).1, Cert.ReferenceIdeal.Read.val_main_v37_eq, Cert.ReferenceIdeal.RefValue.result_eq,
      h0, h1, h3, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
